-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S16x64x8192 : Shape := ⟨3, ![16, 64, 8192]⟩
abbrev S256x256 : Shape := ⟨2, ![256, 256]⟩
abbrev S256 : Shape := ⟨1, ![256]⟩
abbrev S64x256 : Shape := ⟨2, ![64, 256]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg5 : FVec F S256 .f32) (main_arg6 : FVec F S64x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  main_v28

def fn {F : FTy → Type} [FloatOps F] (main_arg0 : FVec F S16x8192x256 .f32) (main_arg1 : IVec S16x64x8192 32) (main_arg2 : FVec F S256x256 .f32) (main_arg3 : FVec F S256 .f32) (main_arg4 : FVec F S256x256 .f32) (main_arg5 : FVec F S256 .f32) (main_arg6 : FVec F S64x256 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_v13 main_v16
-- ==== Kernel.lean ====
abbrev S16x8192x256 : Shape := ⟨3, ![16, 8192, 256]⟩
abbrev S16x64x8192 : Shape := ⟨3, ![16, 64, 8192]⟩
abbrev S256x256 : Shape := ⟨2, ![256, 256]⟩
abbrev S256 : Shape := ⟨1, ![256]⟩
abbrev S64x256 : Shape := ⟨2, ![64, 256]⟩
abbrev S16x1x256 : Shape := ⟨3, ![16, 1, 256]⟩
abbrev S16x1x1 : Shape := ⟨3, ![16, 1, 1]⟩
abbrev S16x1x8192 : Shape := ⟨3, ![16, 1, 8192]⟩
abbrev S1x2048x256 : Shape := ⟨3, ![1, 2048, 256]⟩
abbrev S1x64x2048 : Shape := ⟨3, ![1, 64, 2048]⟩
abbrev S1x1x256 : Shape := ⟨3, ![1, 1, 256]⟩
abbrev S1x1x1 : Shape := ⟨3, ![1, 1, 1]⟩
abbrev S1x1x2048 : Shape := ⟨3, ![1, 1, 2048]⟩
abbrev S2048x256 : Shape := ⟨2, ![2048, 256]⟩
abbrev S64x2048 : Shape := ⟨2, ![64, 2048]⟩
abbrev S1x256 : Shape := ⟨2, ![1, 256]⟩
abbrev S256x2048 : Shape := ⟨2, ![256, 2048]⟩
abbrev S2048 : Shape := ⟨1, ![2048]⟩
abbrev S1x2048 : Shape := ⟨2, ![1, 2048]⟩
abbrev S1 : Shape := ⟨1, ![1]⟩
abbrev S1x1 : Shape := ⟨2, ![1, 1]⟩

abbrev nBuf : Space → Nat
  | .hbm => 14
  | .vmem => 15
  | .smem => 0
  | _ => 0

abbrev bufTy : (tb : Table) → Fin (tcTables nBuf tb) → BufTy
  | .hbm, ⟨0, _⟩ => ⟨S16x8192x256, .f32⟩
  | .hbm, ⟨1, _⟩ => ⟨S16x64x8192, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S64x256, .f32⟩
  | .hbm, ⟨7, _⟩ => ⟨S16x1x256, .f32⟩
  | .hbm, ⟨8, _⟩ => ⟨S16x1x1, .f32⟩
  | .hbm, ⟨9, _⟩ => ⟨S16x1x8192, .f32⟩
  | .hbm, ⟨10, _⟩ => ⟨S16x1x8192, .f32⟩
  | .hbm, ⟨11, _⟩ => ⟨S16x1x8192, .f32⟩
  | .hbm, ⟨12, _⟩ => ⟨S16x1x256, .f32⟩
  | .hbm, ⟨13, _⟩ => ⟨S16x1x256, .f32⟩
  | .local _ .vmem, ⟨0, _⟩ => ⟨S1x2048x256, .f32⟩
  | .local _ .vmem, ⟨1, _⟩ => ⟨S1x2048x256, .f32⟩
  | .local _ .vmem, ⟨2, _⟩ => ⟨S1x64x2048, .i32⟩
  | .local _ .vmem, ⟨3, _⟩ => ⟨S1x64x2048, .i32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S64x256, .f32⟩
  | .local _ .vmem, ⟨9, _⟩ => ⟨S1x1x256, .f32⟩
  | .local _ .vmem, ⟨10, _⟩ => ⟨S1x1x256, .f32⟩
  | .local _ .vmem, ⟨11, _⟩ => ⟨S1x1x1, .f32⟩
  | .local _ .vmem, ⟨12, _⟩ => ⟨S1x1x1, .f32⟩
  | .local _ .vmem, ⟨13, _⟩ => ⟨S1x1x2048, .f32⟩
  | .local _ .vmem, ⟨14, _⟩ => ⟨S1x1x2048, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  inb_S1x1x256_S1x1x256_0_0_0 : ∀ a, (![0, 0, 0] : Fin 3 → Nat) a + S1x1x256.size a ≤ S1x1x256.size a
  h_S1x1x256 : 0 < S1x1x256.numel
  inb_S1x1x1_S1x1x1_0_0_0 : ∀ a, (![0, 0, 0] : Fin 3 → Nat) a + S1x1x1.size a ≤ S1x1x1.size a
  h_S1x1x1 : 0 < S1x1x1.numel
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  transposes_S256x256_p1_0_S256x256 : S256x256.Transposes [1, 0] S256x256
  shapeCasts_S256_S1x256 : S256.ShapeCasts S1x256
  broadcasts_S1x256_S2048x256 : S1x256.Broadcasts S2048x256
  inb_S64x256_S64x256_0_0 : ∀ a, (![0, 0] : Fin 2 → Nat) a + S64x256.size a ≤ S64x256.size a
  h_S64x256 : 0 < S64x256.numel
  transposes_S2048x256_p1_0_S256x2048 : S2048x256.Transposes [1, 0] S256x2048
  reduces_S64x2048_S2048 : S64x2048.Reduces [0] S2048
  shapeCasts_S2048_S1x2048 : S2048.ShapeCasts S1x2048
  broadcasts_S1x2048_S64x2048 : S1x2048.Broadcasts S64x2048
  slices_S64x2048_o3_0_S1x2048 : S64x2048.Slices ![3, 0] S1x2048
  reduces_S1x2048_S1 : S1x2048.Reduces [1] S1
  shapeCasts_S1_S1x1 : S1.ShapeCasts S1x1
  shapeCasts_S1x1x256_S1x256 : S1x1x256.ShapeCasts S1x256
  shapeCasts_S1x256_S1x1x256 : S1x256.ShapeCasts S1x1x256
  shapeCasts_S1x1x1_S1x1 : S1x1x1.ShapeCasts S1x1
  shapeCasts_S1x1_S1x1x1 : S1x1.ShapeCasts S1x1x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  bcast_S16x1x1_S16x1x8192_0_1_2 : S16x1x1.BroadcastsInDim S16x1x8192 (![0, 1, 2] : Fin 3 → Fin S16x1x8192.rank)
  bcast_S16x1x1_S16x1x256_0_1_2 : S16x1x1.BroadcastsInDim S16x1x256 (![0, 1, 2] : Fin 3 → Fin S16x1x256.rank)
  dot_S2048x256_S256x256_S2048x256_1_0_0_1_n_n_wf : DotDims.WF S2048x256 S256x256 S2048x256 [1] [0] [0] [1] [] []
  dot_S64x256_S256x2048_S64x2048_1_0_0_1_n_n_wf : DotDims.WF S64x256 S256x2048 S64x2048 [1] [0] [0] [1] [] []
  dot_S1x2048_S2048x256_S1x256_1_0_0_1_n_n_wf : DotDims.WF S1x2048 S2048x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x8192x256.size a
  hwx0_0 : ∀ i : grid0.Coords, EltTy.bits .f32 = 32 ∨ (Rect.block (s := S16x8192x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S16x64x8192.size a
  hwx0_1 : ∀ i : grid0.Coords, EltTy.bits .i32 = 32 ∨ (Rect.block (s := S16x64x8192) S1x64x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .f32 = 32 ∨ (Rect.block (s := S64x256) S64x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S16x1x256.size a
  hwx0_7 : ∀ i : grid0.Coords, EltTy.bits .f32 = 32 ∨ (Rect.block (s := S16x1x256) S1x1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S16x1x1.size a
  hwx0_8 : ∀ i : grid0.Coords, EltTy.bits .f32 = 32 ∨ (Rect.block (s := S16x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x2048.size a ≤ S16x1x8192.size a
  hwx0_9 : ∀ i : grid0.Coords, EltTy.bits .f32 = 32 ∨ (Rect.block (s := S16x1x8192) S1x1x2048.size (cc0_transform_9 i) (hinb0_9 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S64x256_S256x2048_S64x2048_1_0_0_1_n_n : DotDims S64x256 S256x2048 S64x2048 where
  lhsContracting := [1]
  rhsContracting := [0]
  lhsNonContracting := [0]
  rhsNonContracting := [1]
  lhsBatch := []
  rhsBatch := []
  wf := dot_S64x256_S256x2048_S64x2048_1_0_0_1_n_n_wf
def dot_S1x2048_S2048x256_S1x256_1_0_0_1_n_n : DotDims S1x2048 S2048x256 S1x256 where
  lhsContracting := [1]
  rhsContracting := [0]
  lhsNonContracting := [0]
  rhsNonContracting := [1]
  lhsBatch := []
  rhsBatch := []
  wf := dot_S1x2048_S2048x256_S1x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x1x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x1x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x1x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x8192x256 : Shape := ⟨3, ![16, 8192, 256]⟩
abbrev S16x64x8192 : Shape := ⟨3, ![16, 64, 8192]⟩
abbrev S256x256 : Shape := ⟨2, ![256, 256]⟩
abbrev S256 : Shape := ⟨1, ![256]⟩
abbrev S64x256 : Shape := ⟨2, ![64, 256]⟩
abbrev S1x1x256 : Shape := ⟨3, ![1, 1, 256]⟩
abbrev S16x8192x64 : Shape := ⟨3, ![16, 8192, 64]⟩
abbrev S_ : Shape := ⟨0, ![]⟩
abbrev S16x8192 : Shape := ⟨2, ![16, 8192]⟩
abbrev S16x1x8192 : Shape := ⟨3, ![16, 1, 8192]⟩
abbrev S16x64 : Shape := ⟨2, ![16, 64]⟩
abbrev S16x64x1 : Shape := ⟨3, ![16, 64, 1]⟩
abbrev S16x1x256 : Shape := ⟨3, ![16, 1, 256]⟩

abbrev nBuf : Space → Nat
  | .hbm => 50
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S16x64x8192, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S64x256, .f32⟩
  | .hbm, ⟨7, _⟩ => ⟨S16x8192x256, .f32⟩
  | .hbm, ⟨8, _⟩ => ⟨S1x1x256, .f32⟩
  | .hbm, ⟨9, _⟩ => ⟨S16x8192x256, .f32⟩
  | .hbm, ⟨10, _⟩ => ⟨S16x8192x256, .f32⟩
  | .hbm, ⟨11, _⟩ => ⟨S16x8192x256, .f32⟩
  | .hbm, ⟨12, _⟩ => ⟨S1x1x256, .f32⟩
  | .hbm, ⟨13, _⟩ => ⟨S16x8192x256, .f32⟩
  | .hbm, ⟨14, _⟩ => ⟨S16x8192x256, .f32⟩
  | .hbm, ⟨15, _⟩ => ⟨S16x8192x64, .f32⟩
  | .hbm, ⟨16, _⟩ => ⟨S16x64x8192, .f32⟩
  | .hbm, ⟨17, _⟩ => ⟨S_, .f32⟩
  | .hbm, ⟨18, _⟩ => ⟨S_, .f32⟩
  | .hbm, ⟨19, _⟩ => ⟨S16x64x8192, .f32⟩
  | .hbm, ⟨20, _⟩ => ⟨S16x64x8192, .f32⟩
  | .hbm, ⟨21, _⟩ => ⟨S_, .i32⟩
  | .hbm, ⟨22, _⟩ => ⟨S16x64x8192, .i32⟩
  | .hbm, ⟨23, _⟩ => ⟨S16x64x8192, .i1⟩
  | .hbm, ⟨24, _⟩ => ⟨S_, .f32⟩
  | .hbm, ⟨25, _⟩ => ⟨S16x64x8192, .f32⟩
  | .hbm, ⟨26, _⟩ => ⟨S16x64x8192, .f32⟩
  | .hbm, ⟨27, _⟩ => ⟨S_, .f32⟩
  | .hbm, ⟨28, _⟩ => ⟨S16x8192, .f32⟩
  | .hbm, ⟨29, _⟩ => ⟨S_, .f32⟩
  | .hbm, ⟨30, _⟩ => ⟨S16x8192, .f32⟩
  | .hbm, ⟨31, _⟩ => ⟨S16x8192, .f32⟩
  | .hbm, ⟨32, _⟩ => ⟨S16x1x8192, .f32⟩
  | .hbm, ⟨33, _⟩ => ⟨S16x64x8192, .f32⟩
  | .hbm, ⟨34, _⟩ => ⟨S16x64x8192, .f32⟩
  | .hbm, ⟨35, _⟩ => ⟨S16x64x8192, .f32⟩
  | .hbm, ⟨36, _⟩ => ⟨S_, .f32⟩
  | .hbm, ⟨37, _⟩ => ⟨S16x8192, .f32⟩
  | .hbm, ⟨38, _⟩ => ⟨S16x1x8192, .f32⟩
  | .hbm, ⟨39, _⟩ => ⟨S16x64x8192, .f32⟩
  | .hbm, ⟨40, _⟩ => ⟨S16x64x8192, .f32⟩
  | .hbm, ⟨41, _⟩ => ⟨S_, .f32⟩
  | .hbm, ⟨42, _⟩ => ⟨S16x64, .f32⟩
  | .hbm, ⟨43, _⟩ => ⟨S16x64x1, .f32⟩
  | .hbm, ⟨44, _⟩ => ⟨S16x64x8192, .f32⟩
  | .hbm, ⟨45, _⟩ => ⟨S16x64x8192, .f32⟩
  | .hbm, ⟨46, _⟩ => ⟨S16x1x8192, .f32⟩
  | .hbm, ⟨47, _⟩ => ⟨S16x8192, .f32⟩
  | .hbm, ⟨48, _⟩ => ⟨S16x1x8192, .f32⟩
  | .hbm, ⟨49, _⟩ => ⟨S16x1x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_call0_v0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x8192x256_0_1_2 : S1x1x256.BroadcastsInDim S16x8192x256 (![0, 1, 2] : Fin 3 → Fin S16x8192x256.rank)
  transposes_S16x8192x64_S16x64x8192_0_2_1 : S16x8192x64.Transposes [0, 2, 1] S16x64x8192
  bcast_S_S16x64x8192 : S_.BroadcastsInDim S16x64x8192 (![] : Fin 0 → Fin S16x64x8192.rank)
  reducesTo_S16x64x8192_S16x8192_d1 : S16x64x8192.ReducesTo [1] S16x8192
  h_S_ : 0 < S_.numel
  bcast_S_S16x8192 : S_.BroadcastsInDim S16x8192 (![] : Fin 0 → Fin S16x8192.rank)
  bcast_S16x8192_S16x1x8192_0_2 : S16x8192.BroadcastsInDim S16x1x8192 (![0, 2] : Fin 2 → Fin S16x1x8192.rank)
  bcast_S16x1x8192_S16x64x8192_0_1_2 : S16x1x8192.BroadcastsInDim S16x64x8192 (![0, 1, 2] : Fin 3 → Fin S16x64x8192.rank)
  reducesTo_S16x64x8192_S16x64_d2 : S16x64x8192.ReducesTo [2] S16x64
  bcast_S16x64_S16x64x1_0_1 : S16x64.BroadcastsInDim S16x64x1 (![0, 1] : Fin 2 → Fin S16x64x1.rank)
  bcast_S16x64x1_S16x64x8192_0_1_2 : S16x64x1.BroadcastsInDim S16x64x8192 (![0, 1, 2] : Fin 3 → Fin S16x64x8192.rank)
  slices_S16x64x8192_S16x1x8192_0_3_0 : S16x64x8192.Slices ![0, 3, 0] S16x1x8192
  shapeCasts_S16x1x8192_S16x8192 : S16x1x8192.ShapeCasts S16x8192
  dot_S16x8192x256_S256x256_S16x8192x256_2_1_01_0_n_n_wf : DotDims.WF S16x8192x256 S256x256 S16x8192x256 [2] [1] [0, 1] [0] [] []
  dot_S16x8192x256_S64x256_S16x8192x64_2_1_01_0_n_n_wf : DotDims.WF S16x8192x256 S64x256 S16x8192x64 [2] [1] [0, 1] [0] [] []
  dot_S16x1x8192_S16x8192x256_S16x1x256_2_1_1_2_0_0_wf : DotDims.WF S16x1x8192 S16x8192x256 S16x1x256 [2] [1] [1] [2] [0] [0]

variable [Facts₀]

def dot_S16x8192x256_S256x256_S16x8192x256_2_1_01_0_n_n : DotDims S16x8192x256 S256x256 S16x8192x256 where
  lhsContracting := [2]
  rhsContracting := [1]
  lhsNonContracting := [0, 1]
  rhsNonContracting := [0]
  lhsBatch := []
  rhsBatch := []
  wf := dot_S16x8192x256_S256x256_S16x8192x256_2_1_01_0_n_n_wf
def dot_S16x8192x256_S64x256_S16x8192x64_2_1_01_0_n_n : DotDims S16x8192x256 S64x256 S16x8192x64 where
  lhsContracting := [2]
  rhsContracting := [1]
  lhsNonContracting := [0, 1]
  rhsNonContracting := [0]
  lhsBatch := []
  rhsBatch := []
  wf := dot_S16x8192x256_S64x256_S16x8192x64_2_1_01_0_n_n_wf
def dot_S16x1x8192_S16x8192x256_S16x1x256_2_1_1_2_0_0 : DotDims S16x1x8192 S16x8192x256 S16x1x256 where
  lhsContracting := [2]
  rhsContracting := [1]
  lhsNonContracting := [1]
  rhsNonContracting := [2]
  lhsBatch := [0]
  rhsBatch := [0]
  wf := dot_S16x1x8192_S16x8192x256_S16x1x256_2_1_1_2_0_0_wf

class Facts : Prop extends Facts₀ where

variable [Facts]
-- ==== Proof.TailRead.lean ====
/-
  The kernel program's host tail. After the region, four host operations divide the first region output (the weighted
  sums of value rows) and the third (the weights) by the second (the sums of weights), broadcast along the last axis.
  Here: what the two result buffers hold after those operations, as functions of the three region outputs, and those
  functions read at plain coordinates.
-/
import proofs.«134120_j17386027614758_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Tail

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The tail's quotient of the first region output by the second, broadcast along the last axis. -/
def tailOut (num : FVec Ideal S16x1x256 .f32) (dn : FVec Ideal S16x1x1 .f32) : FVec Ideal S16x1x256 .f32 :=
  Host.divf (F := Ideal) num (broadcastInDim S16x1x256 ![0, 1, 2] bcast_S16x1x1_S16x1x256_0_1_2 dn)

/-- The tail's quotient of the third region output by the second, broadcast along the last axis. -/
def tailAttn (wt : FVec Ideal S16x1x8192 .f32) (dn : FVec Ideal S16x1x1 .f32) : FVec Ideal S16x1x8192 .f32 :=
  Host.divf (F := Ideal) wt (broadcastInDim S16x1x8192 ![0, 1, 2] bcast_S16x1x1_S16x1x8192_0_1_2 dn)

theorem tail_v4 (c : Dev nD) :
    Pipeline.afterTail₀ cfgs (dats m) 0 (V0 m) [hostOps1] c main_v4
      = tailOut ((dats m 0 c).arrAt 7 cfg0.N) ((dats m 0 c).arrAt 8 cfg0.N) := by
  unfold Pipeline.afterTail₀
  simp only [List.flatten_cons, List.flatten_nil, List.append_nil]
  show StableHlo.after hostOps1 _ (Proc.devRef .tc main_v4) = _
  after_results
  have e7 := Pipeline.withArrays_arr spec0 launch0.win.arr_inj c (V0 m c) (fun w => (dats m 0 c).arrAt w (cfgs 0).N) 7
  have e8 := Pipeline.withArrays_arr spec0 launch0.win.arr_inj c (V0 m c) (fun w => (dats m 0 c).arrAt w (cfgs 0).N) 8
  exact congrArg₂ tailOut e7 e8

theorem tail_v2 (c : Dev nD) :
    Pipeline.afterTail₀ cfgs (dats m) 0 (V0 m) [hostOps1] c main_v2
      = tailAttn ((dats m 0 c).arrAt 9 cfg0.N) ((dats m 0 c).arrAt 8 cfg0.N) := by
  unfold Pipeline.afterTail₀
  simp only [List.flatten_cons, List.flatten_nil, List.append_nil]
  show StableHlo.after hostOps1 _ (Proc.devRef .tc main_v2) = _
  after_results
  have e9 := Pipeline.withArrays_arr spec0 launch0.win.arr_inj c (V0 m c) (fun w => (dats m 0 c).arrAt w (cfgs 0).N) 9
  have e8 := Pipeline.withArrays_arr spec0 launch0.win.arr_inj c (V0 m c) (fun w => (dats m 0 c).arrAt w (cfgs 0).N) 8
  exact congrArg₂ tailAttn e9 e8

/-- The quotient read at `(b, z, e)`: the numerator there over the denominator at `(b, 0, 0)`. -/
theorem tailOut_apply (num : FVec Ideal S16x1x256 .f32) (dn : FVec Ideal S16x1x1 .f32) (b : Fin 16) (z : Fin 1) (e : Fin 256) :
    tailOut num dn (ix3 b z e) = Ideal.div (num (ix3 b z e)) (dn (ix3 b 0 0)) := by
  unfold tailOut
  show Ideal.div (num (ix3 b z e)) (broadcastInDim S16x1x256 ![0, 1, 2] bcast_S16x1x1_S16x1x256_0_1_2 dn (ix3 b z e)) = _
  rw [broadcastInDim_apply _ bcast_S16x1x1_S16x1x256_0_1_2 dn (ix3 b z e) (ix3 b 0 0) (fun a => by
    match a with
    | ⟨0, _⟩ => show b.val = if (16 : Nat) = 1 then 0 else b.val; rw [if_neg (by decide)]
    | ⟨1, _⟩ => show 0 = if (1 : Nat) = 1 then 0 else z.val; rw [if_pos rfl]
    | ⟨2, _⟩ => show 0 = if (1 : Nat) = 1 then 0 else e.val; rw [if_pos rfl])]

theorem tailAttn_apply (wt : FVec Ideal S16x1x8192 .f32) (dn : FVec Ideal S16x1x1 .f32) (b : Fin 16) (z : Fin 1) (s : Fin 8192) :
    tailAttn wt dn (ix3 b z s) = Ideal.div (wt (ix3 b z s)) (dn (ix3 b 0 0)) := by
  unfold tailAttn
  show Ideal.div (wt (ix3 b z s)) (broadcastInDim S16x1x8192 ![0, 1, 2] bcast_S16x1x1_S16x1x8192_0_1_2 dn (ix3 b z s)) = _
  rw [broadcastInDim_apply _ bcast_S16x1x1_S16x1x8192_0_1_2 dn (ix3 b z s) (ix3 b 0 0) (fun a => by
    match a with
    | ⟨0, _⟩ => show b.val = if (16 : Nat) = 1 then 0 else b.val; rw [if_neg (by decide)]
    | ⟨1, _⟩ => show 0 = if (1 : Nat) = 1 then 0 else z.val; rw [if_pos rfl]
    | ⟨2, _⟩ => show 0 = if (1 : Nat) = 1 then 0 else s.val; rw [if_pos rfl])]

end Cert.KernelIdeal.Tail
end
-- ==== Proof.Pieces.lean ====
/-
  What one grid point leaves in the three output blocks, as values of the point's input blocks.

  The body computes, from the embedding block `x0`, the mask block `x1`, the two weight matrices and biases and the
  queries, the block of value rows `k0_pay8 x0 x2 x3` and the block of masked logits `k0_pay9 x0 x1 x4 x5 x6`; from the
  logits the row of weights (`k0_pay1`). It then ADDS the weighted sum of the value rows into the first output block,
  ADDS the sum of the weights into the second, and STORES the weights into the third. At the first sequence tile of a
  batch row (case A) the two accumulators are first reset to zero, so they end at `0 + contribution`; at the other
  tiles (case B) they end at `previous + contribution`.
-/
import proofs.«134120_j17386027614758_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

variable (c : Dev nD) (i : grid0.Coords)
  (a2 : Memref sig .tc .vmem S1x2048x256 .f32) (h2 : a2.IsWhole) (a3 : Memref sig .tc .vmem S1x64x2048 .i32) (h3 : a3.IsWhole)
  (a4 : Memref sig .tc .vmem S256x256 .f32) (h4 : a4.IsWhole) (a5 : Memref sig .tc .vmem S256 .f32) (h5 : a5.IsWhole)
  (a6 : Memref sig .tc .vmem S256x256 .f32) (h6 : a6.IsWhole) (a7 : Memref sig .tc .vmem S256 .f32) (h7 : a7.IsWhole)
  (a8 : Memref sig .tc .vmem S64x256 .f32) (h8 : a8.IsWhole) (a9 : Memref sig .tc .vmem S1x1x256 .f32) (h9 : a9.IsWhole)
  (a10 : Memref sig .tc .vmem S1x1x1 .f32) (h10 : a10.IsWhole) (a11 : Memref sig .tc .vmem S1x1x2048 .f32) (h11 : a11.IsWhole)
  (x0 : Vec F S1x2048x256 .f32) (x1 : Vec F S1x64x2048 .i32) (x2 : Vec F S256x256 .f32) (x3 : Vec F S256 .f32)
  (x4 : Vec F S256x256 .f32) (x5 : Vec F S256 .f32) (x6 : Vec F S64x256 .f32)

/-- A later tile: the third output block holds the tile's weights. -/
theorem out_B_9 (hc : ¬cond0_0 i) (xo7 : Vec F S1x1x256 .f32) (xo8 : Vec F S1x1x1 .f32) :
    out0_B_9 c i a2 h2 a3 h3 a4 h4 a5 h5 a6 h6 a7 h7 a8 h8 a9 h9 a10 h10 a11 h11 hc x0 x1 x2 x3 x4 x5 x6 xo7 xo8
      = k0_pay4 (k0_pay9 x0 x1 x4 x5 x6) := by
  unfold out0_B_9
  rw [View.read_writes_eq_canon _ _ _ (cover0_B_9 c i a2 h2 a3 h3 a4 h4 a5 h5 a6 h6 a7 h7 a8 h8 a9 h9 a10 h10 a11 h11 hc x0 x1 x2 x3 x4 x5 x6 xo7 xo8)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread,
    View.ld_unit_zero (S := S1x2048x256) hz3, View.ld_unit_zero (S := S1x64x2048) hz3, View.ld_unit_zero (S := S256x256) hz2, View.ld_unit_zero (S := S256) hz1, View.ld_unit_zero (S := S64x256) hz2,
    View.ld_unit_zero (S := S1x1x256) hz3, View.ld_unit_zero (S := S1x1x1) hz3, View.ld_unit_zero (S := S1x1x2048) hz3]

/-- A later tile: the second output block holds what it held plus the sum of the tile's weights. -/
theorem out_B_8 (hc : ¬cond0_0 i) (xo7 : Vec F S1x1x256 .f32) (xo8 : Vec F S1x1x1 .f32) :
    out0_B_8 c i a2 h2 a3 h3 a4 h4 a5 h5 a6 h6 a7 h7 a8 h8 a9 h9 a10 h10 a11 h11 hc x0 x1 x2 x3 x4 x5 x6 xo7 xo8
      = k0_pay3 (k0_pay9 x0 x1 x4 x5 x6) xo8 := by
  unfold out0_B_8
  rw [View.read_writes_eq_canon _ _ _ (cover0_B_8 c i a2 h2 a3 h3 a4 h4 a5 h5 a6 h6 a7 h7 a8 h8 a9 h9 a10 h10 a11 h11 hc x0 x1 x2 x3 x4 x5 x6 xo7 xo8)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread,
    View.ld_unit_zero (S := S1x2048x256) hz3, View.ld_unit_zero (S := S1x64x2048) hz3, View.ld_unit_zero (S := S256x256) hz2, View.ld_unit_zero (S := S256) hz1, View.ld_unit_zero (S := S64x256) hz2,
    View.ld_unit_zero (S := S1x1x256) hz3, View.ld_unit_zero (S := S1x1x1) hz3, View.ld_unit_zero (S := S1x1x2048) hz3]

/-- A later tile: the first output block holds what it held plus the tile's weighted sum of value rows. -/
theorem out_B_7 (hc : ¬cond0_0 i) (xo7 : Vec F S1x1x256 .f32) (xo8 : Vec F S1x1x1 .f32) :
    out0_B_7 c i a2 h2 a3 h3 a4 h4 a5 h5 a6 h6 a7 h7 a8 h8 a9 h9 a10 h10 a11 h11 hc x0 x1 x2 x3 x4 x5 x6 xo7 xo8
      = k0_pay2 (k0_pay8 x0 x2 x3) (k0_pay9 x0 x1 x4 x5 x6) xo7 := by
  unfold out0_B_7
  rw [View.read_writes_eq_canon _ _ _ (cover0_B_7 c i a2 h2 a3 h3 a4 h4 a5 h5 a6 h6 a7 h7 a8 h8 a9 h9 a10 h10 a11 h11 hc x0 x1 x2 x3 x4 x5 x6 xo7 xo8)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread,
    View.ld_unit_zero (S := S1x2048x256) hz3, View.ld_unit_zero (S := S1x64x2048) hz3, View.ld_unit_zero (S := S256x256) hz2, View.ld_unit_zero (S := S256) hz1, View.ld_unit_zero (S := S64x256) hz2,
    View.ld_unit_zero (S := S1x1x256) hz3, View.ld_unit_zero (S := S1x1x1) hz3, View.ld_unit_zero (S := S1x1x2048) hz3]

/-- The first tile: the third output block holds the tile's weights. -/
theorem out_A_9 (hc : cond0_0 i) :
    out0_A_9 c i a2 h2 a3 h3 a4 h4 a5 h5 a6 h6 a7 h7 a8 h8 a9 h9 a10 h10 a11 h11 hc x0 x1 x2 x3 x4 x5 x6
      = k0_pay4 (k0_pay9 x0 x1 x4 x5 x6) := by
  unfold out0_A_9
  rw [View.read_writes_eq_canon _ _ _ (cover0_A_9 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread,
    View.ld_unit_zero (S := S1x2048x256) hz3, View.ld_unit_zero (S := S1x64x2048) hz3, View.ld_unit_zero (S := S256x256) hz2, View.ld_unit_zero (S := S256) hz1, View.ld_unit_zero (S := S64x256) hz2,
    View.ld_unit_zero (S := S1x1x256) hz3, View.ld_unit_zero (S := S1x1x1) hz3, View.ld_unit_zero (S := S1x1x2048) hz3]

/-- The first tile: the second output block is reset to zero, then the sum of the tile's weights is added. -/
theorem out_A_8 (hc : cond0_0 i) :
    out0_A_8 c i a2 h2 a3 h3 a4 h4 a5 h5 a6 h6 a7 h7 a8 h8 a9 h9 a10 h10 a11 h11 hc x0 x1 x2 x3 x4 x5 x6
      = k0_pay3 (k0_pay9 x0 x1 x4 x5 x6) k0_pay6 := by
  unfold out0_A_8
  rw [View.read_writes_eq_canon _ _ _ (cover0_A_8 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread, h8.read_unread, h9.read_unread, h10.read_unread, h11.read_unread,
    View.ld_unit_zero (S := S1x2048x256) hz3, View.ld_unit_zero (S := S1x64x2048) hz3, View.ld_unit_zero (S := S256x256) hz2, View.ld_unit_zero (S := S256) hz1, View.ld_unit_zero (S := S64x256) hz2,
    View.ld_unit_zero (S := S1x1x256) hz3, View.ld_unit_zero (S := S1x1x1) hz3, View.ld_unit_zero (S := S1x1x2048) hz3]

/-- The first tile: the first output block is reset to zero, then the tile's weighted sum of value rows is added. -/
theorem out_A_7 (hc : cond0_0 i) :
    out0_A_7 c i a2 h2 a3 h3 a4 h4 a5 h5 a6 h6 a7 h7 a8 h8 a9 h9 a10 h10 a11 h11 hc x0 x1 x2 x3 x4 x5 x6
      = k0_pay2 (k0_pay8 x0 x2 x3) (k0_pay9 x0 x1 x4 x5 x6) k0_pay5 := by
  unfold out0_A_7
  rw [View.read_writes_eq_canon _ _ _ (cover0_A_7 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x1x256) hz3, View.readCov_unit_zero (S := S1x1x256) _ hz3]
  simp only [View.readAt_eq_ld, h2.read_unread, h3.read_unread, h4.read_unread, h5.read_unread, h6.read_unread, h7.read_unread, h8.read_unread, h9.read_unread, h10.read_unread, h11.read_unread,
    View.ld_unit_zero (S := S1x2048x256) hz3, View.ld_unit_zero (S := S1x64x2048) hz3, View.ld_unit_zero (S := S256x256) hz2, View.ld_unit_zero (S := S256) hz1, View.ld_unit_zero (S := S64x256) hz2,
    View.ld_unit_zero (S := S1x1x256) hz3, View.ld_unit_zero (S := S1x1x1) hz3, View.ld_unit_zero (S := S1x1x2048) hz3]

end Cert.KernelIdeal.Pieces

end
-- ==== Proof.Outs.lean ====
/-
  What the three output blocks hold after each grid point, over the point's input blocks: the first two are running
  sums over the sequence tiles of one batch row (restarted from zero at the row's first tile), the third is the
  tile's own weights.
-/
import proofs.«134120_j17386027614758_1_alg».proof.Proof.Pieces

noncomputable section

namespace Cert.KernelIdeal.Pieces

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The block of masked logits at point `t`. -/
abbrev lgt (c : Dev nD) (t : Fin cfg0.N) : FVec F S64x2048 .f32 :=
  k0_pay9 (iblk m c 0 t) (iblk m c 1 t) (iblk m c 4 t) (iblk m c 5 t) (iblk m c 6 t)
/-- The block of value rows at point `t`. -/
abbrev vls (c : Dev nD) (t : Fin cfg0.N) : FVec F S2048x256 .f32 :=
  k0_pay8 (iblk m c 0 t) (iblk m c 2 t) (iblk m c 3 t)

/-- At a batch row's first tile the accumulators restart from zero. -/
theorem outsAt_first (c : Dev nD) (t : Fin cfg0.N) (h0 : t.val % 4 = 0) :
    outsAt0 m c t.val t.isLt
      = (k0_pay2 (vls m c t) (lgt m c t) k0_pay5, k0_pay3 (lgt m c t) k0_pay6, k0_pay4 (lgt m c t)) := by
  rw [outsAt0_A m c t h0,
    out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) ((hcond0_0 t).mpr h0),
    out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) ((hcond0_0 t).mpr h0),
    out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) ((hcond0_0 t).mpr h0)]

/-- At a later tile they continue from what the tile before left. -/
theorem outsAt_later (c : Dev nD) (t : Fin cfg0.N) (h0 : ¬t.val % 4 = 0) :
    outsAt0 m c t.val t.isLt
      = (k0_pay2 (vls m c t) (lgt m c t) (outsAt0 m c (t.val - 1) (Nat.lt_of_le_of_lt (Nat.sub_le _ _) t.isLt)).1,
         k0_pay3 (lgt m c t) (outsAt0 m c (t.val - 1) (Nat.lt_of_le_of_lt (Nat.sub_le _ _) t.isLt)).2.1,
         k0_pay4 (lgt m c t)) := by
  rw [outsAt0_B m c t h0,
    out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (fun h => h0 ((hcond0_0 t).mp h)) (outsAt0 m c (t.val - 1) (Nat.lt_of_le_of_lt (Nat.sub_le _ _) t.isLt)).1 (outsAt0 m c (t.val - 1) (Nat.lt_of_le_of_lt (Nat.sub_le _ _) t.isLt)).2.1,
    out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (fun h => h0 ((hcond0_0 t).mp h)) (outsAt0 m c (t.val - 1) (Nat.lt_of_le_of_lt (Nat.sub_le _ _) t.isLt)).1 (outsAt0 m c (t.val - 1) (Nat.lt_of_le_of_lt (Nat.sub_le _ _) t.isLt)).2.1,
    out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (fun h => h0 ((hcond0_0 t).mp h)) (outsAt0 m c (t.val - 1) (Nat.lt_of_le_of_lt (Nat.sub_le _ _) t.isLt)).1 (outsAt0 m c (t.val - 1) (Nat.lt_of_le_of_lt (Nat.sub_le _ _) t.isLt)).2.1]

end Cert.KernelIdeal.Pieces

end
-- ==== Proof.Rows.lean ====
/-
  One batch row's four tiles, unrolled: after the row's last tile the two accumulator blocks hold the four tiles'
  contributions added one after another onto the zero block the first tile stored, and the third block holds the last
  tile's weights. The grid walks a batch row's tiles consecutively, so the points are `n, n+1, n+2, n+3` with `n` a
  multiple of four.
-/
import proofs.«134120_j17386027614758_1_alg».proof.Proof.Outs

noncomputable section

namespace Cert.KernelIdeal.Pieces

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The third output block after any point holds that tile's weights. -/
theorem outsAt_weights (c : Dev nD) (t : Fin cfg0.N) : (outsAt0 m c t.val t.isLt).2.2 = k0_pay4 (lgt m c t) := by
  by_cases h0 : t.val % 4 = 0
  · rw [outsAt_first m c t h0]
  · rw [outsAt_later m c t h0]

/-- A later tile, with the point written as a successor. -/
theorem outsAt_succ (c : Dev nD) (n : ℕ) (h : n + 1 < cfg0.N) (h0 : ¬(n + 1) % 4 = 0) :
    outsAt0 m c (n + 1) h
      = (k0_pay2 (vls m c ⟨n + 1, h⟩) (lgt m c ⟨n + 1, h⟩) (outsAt0 m c n (Nat.lt_of_succ_lt h)).1,
         k0_pay3 (lgt m c ⟨n + 1, h⟩) (outsAt0 m c n (Nat.lt_of_succ_lt h)).2.1,
         k0_pay4 (lgt m c ⟨n + 1, h⟩)) :=
  outsAt_later m c ⟨n + 1, h⟩ h0

/-- After a batch row's fourth tile. -/
theorem outsAt_row (c : Dev nD) (n : ℕ) (hn : n + 1 + 1 + 1 < cfg0.N) (h0 : n % 4 = 0) :
    outsAt0 m c (n + 1 + 1 + 1) hn
      = (k0_pay2 (vls m c ⟨n + 1 + 1 + 1, hn⟩) (lgt m c ⟨n + 1 + 1 + 1, hn⟩)
           (k0_pay2 (vls m c ⟨n + 1 + 1, Nat.lt_of_succ_lt hn⟩) (lgt m c ⟨n + 1 + 1, Nat.lt_of_succ_lt hn⟩)
             (k0_pay2 (vls m c ⟨n + 1, Nat.lt_of_succ_lt (Nat.lt_of_succ_lt hn)⟩) (lgt m c ⟨n + 1, Nat.lt_of_succ_lt (Nat.lt_of_succ_lt hn)⟩)
               (k0_pay2 (vls m c ⟨n, Nat.lt_of_succ_lt (Nat.lt_of_succ_lt (Nat.lt_of_succ_lt hn))⟩)
                 (lgt m c ⟨n, Nat.lt_of_succ_lt (Nat.lt_of_succ_lt (Nat.lt_of_succ_lt hn))⟩) k0_pay5))),
         k0_pay3 (lgt m c ⟨n + 1 + 1 + 1, hn⟩)
           (k0_pay3 (lgt m c ⟨n + 1 + 1, Nat.lt_of_succ_lt hn⟩)
             (k0_pay3 (lgt m c ⟨n + 1, Nat.lt_of_succ_lt (Nat.lt_of_succ_lt hn)⟩)
               (k0_pay3 (lgt m c ⟨n, Nat.lt_of_succ_lt (Nat.lt_of_succ_lt (Nat.lt_of_succ_lt hn))⟩) k0_pay6))),
         k0_pay4 (lgt m c ⟨n + 1 + 1 + 1, hn⟩)) := by
  rw [outsAt_succ m c (n + 1 + 1) hn (by omega),
    outsAt_succ m c (n + 1) (Nat.lt_of_succ_lt hn) (by omega),
    outsAt_succ m c n (Nat.lt_of_succ_lt (Nat.lt_of_succ_lt hn)) (by omega),
    show outsAt0 m c n (Nat.lt_of_succ_lt (Nat.lt_of_succ_lt (Nat.lt_of_succ_lt hn))) = _ from
      outsAt_first m c ⟨n, Nat.lt_of_succ_lt (Nat.lt_of_succ_lt (Nat.lt_of_succ_lt hn))⟩ h0]

end Cert.KernelIdeal.Pieces

end
-- ==== Proof.Spec.lean ====
/-
  The attention read-out that both programs compute, stated once, over the extended reals, as functions of the
  argument arrays and of plain coordinates.

  For a batch row `b` and a sequence position `s`: the value and key rows are affine images of the embedding row,
  `val b s e = (∑ d, E b s d · Wv e d) + bv e` and `key b s e = (∑ d, E b s d · Wk e d) + bk e`; the logit of slot
  `n` is `(∑ d, Q n d · key b s d) · 1/16`, replaced by a large negative constant where the mask is zero; the weight
  `w b s` is the softmax over the 64 slots of those masked logits, read at slot 3 (the exponential of the logit minus
  the slots' maximum, over the sum of those exponentials). With `den b = ∑ s, w b s` the two results are
  `attn b s = w b s / den b` and the weighted mean of the value rows, written in the two arrangements the programs
  use: `outK b e = (∑ s, w b s · val b s e) / den b` (the sum first, one division) and
  `outR b e = ∑ s, (w b s / den b) · val b s e` (each weight divided first).

  Everything is generic in the batch extent `B` and the sequence extent `S`: the whole arrays are the instance
  `B = 16, S = 8192`, one grid point's blocks the instance `B = 1, S = 2048`, and `w`, `val` at a position depend
  only on that position's embedding row and mask column (`w_congr`, `val_congr`).
-/
import Idealize.ShloMosaic.PureOps.Ideal
import Idealize.ShloMosaic.Lib.ValueIdx

noncomputable section

open scoped BigOperators

namespace Cert.Spec

open Idealize.ShloMosaic Idealize.ShloMosaic.ValueIdx

/-- The seven argument arrays, at batch extent `B` and sequence extent `S`. -/
structure Args (B S : Nat) where
  E : FVec Ideal ⟨3, ![B, S, 256]⟩ .f32
  M : IVec ⟨3, ![B, 64, S]⟩ 32
  Wv : FVec Ideal ⟨2, ![256, 256]⟩ .f32
  bv : FVec Ideal ⟨1, ![256]⟩ .f32
  Wk : FVec Ideal ⟨2, ![256, 256]⟩ .f32
  bk : FVec Ideal ⟨1, ![256]⟩ .f32
  Q : FVec Ideal ⟨2, ![64, 256]⟩ .f32

variable {B S : Nat} (A : Args B S)

/-- The scale `1/16` as the kernel writes it (the word of `0.0625`). -/
def scale : EReal := Ideal.ofBits .f32 0x3D800000#32
/-- The large negative constant that replaces a masked logit (the same word in both programs). -/
def negBig : EReal := Ideal.ofBits .f32 0xD9FFCB9E#32
/-- The value of `-∞`'s word, the start of both maxima. -/
def negInf : EReal := Ideal.ofBits .f32 0xFF800000#32

/-- Value row: `(∑ d, E b s d · Wv e d) + bv e`. -/
def val (b : Fin B) (s : Fin S) (e : Fin 256) : EReal :=
  (∑ d : Fin 256, A.E (ix3 b s d) * A.Wv (ix2 e d)) + A.bv (ix1 e)
/-- Key row: `(∑ d, E b s d · Wk e d) + bk e`. -/
def key (b : Fin B) (s : Fin S) (e : Fin 256) : EReal :=
  (∑ d : Fin 256, A.E (ix3 b s d) * A.Wk (ix2 e d)) + A.bk (ix1 e)
/-- Scaled logit of slot `n`. -/
def logit (b : Fin B) (n : Fin 64) (s : Fin S) : EReal :=
  (∑ d : Fin 256, A.Q (ix2 n d) * key A b s d) * scale
/-- The logit, or the large negative constant where the mask word is zero. -/
def masked (b : Fin B) (n : Fin 64) (s : Fin S) : EReal :=
  Scalar.select (IntOp.cmpi .eq (A.M (ix3 b n s)) 0#32) negBig (logit A b n s)
/-- The maximum over the 64 slots. -/
def mx (b : Fin B) (s : Fin S) : EReal :=
  (Finset.univ : Finset (Fin 64)).fold max negInf (fun n => masked A b n s)
/-- The shifted exponential of slot `n`. -/
def ex (b : Fin B) (n : Fin 64) (s : Fin S) : EReal := Ideal.exp (masked A b n s - mx A b s)
/-- The sum of the shifted exponentials over the slots. -/
def sm (b : Fin B) (s : Fin S) : EReal := ∑ n : Fin 64, ex A b n s
/-- The softmax over the slots read at slot 3: the weight of position `s`. -/
def w (b : Fin B) (s : Fin S) : EReal := Ideal.div (ex A b (3 : Fin 64) s) (sm A b s)
/-- The sum of the weights over the sequence. -/
def den (b : Fin B) : EReal := ∑ s : Fin S, w A b s
/-- The normalized weight. -/
def attn (b : Fin B) (s : Fin S) : EReal := Ideal.div (w A b s) (den A b)
/-- The weighted mean of the value rows, the sum taken first. -/
def outK (b : Fin B) (e : Fin 256) : EReal := Ideal.div (∑ s : Fin S, w A b s * val A b s e) (den A b)
/-- The weighted mean of the value rows, each weight normalized first. -/
def outR (b : Fin B) (e : Fin 256) : EReal := ∑ s : Fin S, Ideal.div (w A b s) (den A b) * val A b s e

/-- The weighted-mean result as an array, in the sum-first arrangement. -/
def outArrK : FVec Ideal ⟨3, ![B, 1, 256]⟩ .f32 := fun i => outK A (i 0) (i 2)
/-- The weighted-mean result as an array, in the normalize-first arrangement. -/
def outArrR : FVec Ideal ⟨3, ![B, 1, 256]⟩ .f32 := fun i => outR A (i 0) (i 2)
/-- The normalized weights as an array. -/
def attnArr : FVec Ideal ⟨3, ![B, 1, S]⟩ .f32 := fun i => attn A (i 0) (i 2)

/-- Every float entry of the argument arrays is a real number. -/
structure Args.Real : Prop where
  hE : ∀ i, ∃ r : ℝ, A.E i = (r : EReal)
  hWv : ∀ i, ∃ r : ℝ, A.Wv i = (r : EReal)
  hbv : ∀ i, ∃ r : ℝ, A.bv i = (r : EReal)
  hWk : ∀ i, ∃ r : ℝ, A.Wk i = (r : EReal)
  hbk : ∀ i, ∃ r : ℝ, A.bk i = (r : EReal)
  hQ : ∀ i, ∃ r : ℝ, A.Q i = (r : EReal)

/-- Two argument families with the same weights, biases and queries, whose embedding row at `(b, s)` and mask column
    at `(b, ·, s)` are those of the other at `(b', s')`. -/
structure SameAt {B' S' : Nat} (T : Args B' S') (b' : Fin B') (s' : Fin S') (b : Fin B) (s : Fin S) : Prop where
  hE : ∀ d : Fin 256, T.E (ix3 b' s' d) = A.E (ix3 b s d)
  hM : ∀ n : Fin 64, T.M (ix3 b' n s') = A.M (ix3 b n s)
  hWv : T.Wv = A.Wv
  hbv : T.bv = A.bv
  hWk : T.Wk = A.Wk
  hbk : T.bk = A.bk
  hQ : T.Q = A.Q

variable {A}

theorem val_congr {B' S' : Nat} {T : Args B' S'} {b' : Fin B'} {s' : Fin S'} {b : Fin B} {s : Fin S}
    (h : SameAt A T b' s' b s) (e : Fin 256) : val T b' s' e = val A b s e := by
  unfold val; simp only [h.hE, h.hWv, h.hbv]

theorem key_congr {B' S' : Nat} {T : Args B' S'} {b' : Fin B'} {s' : Fin S'} {b : Fin B} {s : Fin S}
    (h : SameAt A T b' s' b s) (e : Fin 256) : key T b' s' e = key A b s e := by
  unfold key; simp only [h.hE, h.hWk, h.hbk]

theorem masked_congr {B' S' : Nat} {T : Args B' S'} {b' : Fin B'} {s' : Fin S'} {b : Fin B} {s : Fin S}
    (h : SameAt A T b' s' b s) (n : Fin 64) : masked T b' n s' = masked A b n s := by
  unfold masked logit; simp only [h.hM, h.hQ, key_congr h]

theorem w_congr {B' S' : Nat} {T : Args B' S'} {b' : Fin B'} {s' : Fin S'} {b : Fin B} {s : Fin S}
    (h : SameAt A T b' s' b s) : w T b' s' = w A b s := by
  unfold w sm ex mx; simp only [masked_congr h]

end Cert.Spec

end
-- ==== Proof.Blocks.lean ====
/-
  One grid point's input blocks as parts of the argument arrays.

  The grid is 16 batch rows by 4 sequence tiles, walked row-major: point `t` is batch row `t / 4`, tile `t % 4`. The
  embedding window's block at `t` is rows `2048 · (t % 4) …` of batch row `t / 4`; the mask window's block is the same
  columns of that batch row's 64 slots; the five other windows (the two weight matrices, the two biases, the queries)
  are whole arrays at every point. So the specification read at the tile (batch extent 1, sequence extent 2048) agrees,
  position by position, with the specification read at the whole arrays.
-/
import proofs.«134120_j17386027614758_1_alg».proof.Proof.Gen.KernelIdeal.Frame
import proofs.«134120_j17386027614758_1_alg».proof.Proof.Spec
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

theorem N64 : cfg0.N = 64 := N_0

/-- The batch row of grid point `t`. -/
def bOf (t : Fin cfg0.N) : Fin 16 := ⟨t.val / 4, by have h : t.val < 64 := lt_of_lt_of_eq t.isLt N64; omega⟩
/-- The sequence position of row `r` of grid point `t`'s tile. -/
def sOf (t : Fin cfg0.N) (r : Fin 2048) : Fin 8192 := ⟨2048 * (t.val % 4) + r.val, by have := r.isLt; omega⟩

/-- The embedding window's block index at point `t`: (batch row, tile, 0). -/
theorem idx0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

/-- The mask window's block index at point `t`: (batch row, 0, tile). -/
theorem idx1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)

/-- Row `r` of the embedding tile at `t` is row `2048 · (t % 4) + r` of batch row `t / 4`. -/
theorem iblk0_apply (c : Dev nD) (t : Fin cfg0.N) (r : Fin 2048) (d : Fin 256) :
    (iblk m c 0 t : Vec Ideal S1x2048x256 .f32) (ix3 (0 : Fin 1) r d)
      = (m ((c : Thread nD τ).loc main_arg0) : Vec Ideal S16x8192x256 .f32) (ix3 (bOf t) (sOf t r) d) := by
  unfold iblk
  rw [View.read_apply]
  show V m c main_arg0 _ = m (c.tc.loc main_arg0) _
  unfold V
  refine congrArg _ (funext fun a => Fin.ext ?_)
  match a with
  | ⟨0, _⟩ => show win0_0.index t 0 * 1 + 1 * (0 : ℕ) = t.val / 4; rw [(idx0 t).1]; omega
  | ⟨1, _⟩ => show win0_0.index t 1 * 2048 + 1 * r.val = 2048 * (t.val % 4) + r.val; rw [(idx0 t).2.1]; omega
  | ⟨2, _⟩ => show win0_0.index t 2 * 256 + 1 * d.val = d.val; rw [(idx0 t).2.2]; omega

/-- Column `r` of the mask tile at `t` is column `2048 · (t % 4) + r` of batch row `t / 4`, slot by slot. -/
theorem iblk1_apply (c : Dev nD) (t : Fin cfg0.N) (n : Fin 64) (r : Fin 2048) :
    (iblk m c 1 t : Vec Ideal S1x64x2048 .i32) (ix3 (0 : Fin 1) n r)
      = (m ((c : Thread nD τ).loc main_arg1) : Vec Ideal S16x64x8192 .i32) (ix3 (bOf t) n (sOf t r)) := by
  unfold iblk
  rw [View.read_apply]
  show V m c main_arg1 _ = m (c.tc.loc main_arg1) _
  unfold V
  refine congrArg _ (funext fun a => Fin.ext ?_)
  match a with
  | ⟨0, _⟩ => show win0_1.index t 0 * 1 + 1 * (0 : ℕ) = t.val / 4; rw [(idx1 t).1]; omega
  | ⟨1, _⟩ => show win0_1.index t 1 * 64 + 1 * n.val = n.val; rw [(idx1 t).2.1]; omega
  | ⟨2, _⟩ => show win0_1.index t 2 * 2048 + 1 * r.val = 2048 * (t.val % 4) + r.val; rw [(idx1 t).2.2]; omega

/-! The windows whose one block is the whole array. -/

theorem idx2 : ∀ t : Fin cfg0.N, win0_2.index t 0 = 0 ∧ win0_2.index t 1 = 0 :=
  (by decide +kernel : ∀ t : Fin grid0.N, win0_2.index t 0 = 0 ∧ win0_2.index t 1 = 0)

theorem iblk2_eq (c : Dev nD) (t : Fin cfg0.N) :
    (iblk m c 2 t : Vec Ideal S256x256 .f32) = (m ((c : Thread nD τ).loc main_arg2) : Vec Ideal S256x256 .f32) := by
  funext j
  unfold iblk
  rw [View.read_apply]
  show V m c main_arg2 _ = m (c.tc.loc main_arg2) _
  unfold V
  refine congrArg _ (funext fun a => Fin.ext ?_)
  match a with
  | ⟨0, _⟩ => show win0_2.index t 0 * 256 + 1 * (j 0).val = (j 0).val; rw [(idx2 t).1]; omega
  | ⟨1, _⟩ => show win0_2.index t 1 * 256 + 1 * (j 1).val = (j 1).val; rw [(idx2 t).2]; omega

theorem idx3 : ∀ t : Fin cfg0.N, win0_3.index t 0 = 0 :=
  (by decide +kernel : ∀ t : Fin grid0.N, win0_3.index t 0 = 0)

theorem iblk3_eq (c : Dev nD) (t : Fin cfg0.N) :
    (iblk m c 3 t : Vec Ideal S256 .f32) = (m ((c : Thread nD τ).loc main_arg3) : Vec Ideal S256 .f32) := by
  funext j
  unfold iblk
  rw [View.read_apply]
  show V m c main_arg3 _ = m (c.tc.loc main_arg3) _
  unfold V
  refine congrArg _ (funext fun a => Fin.ext ?_)
  match a with
  | ⟨0, _⟩ => show win0_3.index t 0 * 256 + 1 * (j 0).val = (j 0).val; rw [idx3 t]; omega

theorem idx4 : ∀ t : Fin cfg0.N, win0_4.index t 0 = 0 ∧ win0_4.index t 1 = 0 :=
  (by decide +kernel : ∀ t : Fin grid0.N, win0_4.index t 0 = 0 ∧ win0_4.index t 1 = 0)

theorem iblk4_eq (c : Dev nD) (t : Fin cfg0.N) :
    (iblk m c 4 t : Vec Ideal S256x256 .f32) = (m ((c : Thread nD τ).loc main_arg4) : Vec Ideal S256x256 .f32) := by
  funext j
  unfold iblk
  rw [View.read_apply]
  show V m c main_arg4 _ = m (c.tc.loc main_arg4) _
  unfold V
  refine congrArg _ (funext fun a => Fin.ext ?_)
  match a with
  | ⟨0, _⟩ => show win0_4.index t 0 * 256 + 1 * (j 0).val = (j 0).val; rw [(idx4 t).1]; omega
  | ⟨1, _⟩ => show win0_4.index t 1 * 256 + 1 * (j 1).val = (j 1).val; rw [(idx4 t).2]; omega

theorem idx5 : ∀ t : Fin cfg0.N, win0_5.index t 0 = 0 :=
  (by decide +kernel : ∀ t : Fin grid0.N, win0_5.index t 0 = 0)

theorem iblk5_eq (c : Dev nD) (t : Fin cfg0.N) :
    (iblk m c 5 t : Vec Ideal S256 .f32) = (m ((c : Thread nD τ).loc main_arg5) : Vec Ideal S256 .f32) := by
  funext j
  unfold iblk
  rw [View.read_apply]
  show V m c main_arg5 _ = m (c.tc.loc main_arg5) _
  unfold V
  refine congrArg _ (funext fun a => Fin.ext ?_)
  match a with
  | ⟨0, _⟩ => show win0_5.index t 0 * 256 + 1 * (j 0).val = (j 0).val; rw [idx5 t]; omega

theorem idx6 : ∀ t : Fin cfg0.N, win0_6.index t 0 = 0 ∧ win0_6.index t 1 = 0 :=
  (by decide +kernel : ∀ t : Fin grid0.N, win0_6.index t 0 = 0 ∧ win0_6.index t 1 = 0)

theorem iblk6_eq (c : Dev nD) (t : Fin cfg0.N) :
    (iblk m c 6 t : Vec Ideal S64x256 .f32) = (m ((c : Thread nD τ).loc main_arg6) : Vec Ideal S64x256 .f32) := by
  funext j
  unfold iblk
  rw [View.read_apply]
  show V m c main_arg6 _ = m (c.tc.loc main_arg6) _
  unfold V
  refine congrArg _ (funext fun a => Fin.ext ?_)
  match a with
  | ⟨0, _⟩ => show win0_6.index t 0 * 64 + 1 * (j 0).val = (j 0).val; rw [(idx6 t).1]; omega
  | ⟨1, _⟩ => show win0_6.index t 1 * 256 + 1 * (j 1).val = (j 1).val; rw [(idx6 t).2]; omega

/-- The argument arrays as the specification takes them. -/
def args (c : Dev nD) : Cert.Spec.Args 16 8192 :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6)⟩

/-- Grid point `t`'s blocks as the specification takes them: one batch row, 2048 positions. -/
def tile (c : Dev nD) (t : Fin cfg0.N) : Cert.Spec.Args 1 2048 :=
  ⟨iblk m c 0 t, iblk m c 1 t, iblk m c 2 t, iblk m c 3 t, iblk m c 4 t, iblk m c 5 t, iblk m c 6 t⟩

/-- Position `r` of the tile at `t` is position `2048 · (t % 4) + r` of batch row `t / 4`. -/
theorem sameAt (c : Dev nD) (t : Fin cfg0.N) (r : Fin 2048) :
    Cert.Spec.SameAt (args m c) (tile m c t) (0 : Fin 1) r (bOf t) (sOf t r) where
  hE := fun d => iblk0_apply m c t r d
  hM := fun n => iblk1_apply m c t n r
  hWv := iblk2_eq m c t
  hbv := iblk3_eq m c t
  hWk := iblk4_eq m c t
  hbk := iblk5_eq m c t
  hQ := iblk6_eq m c t

end Cert.KernelIdeal.Blocks

end
-- ==== Proof.LibTileSum.lean ====
/-
  A sum over `4 · 2048` positions as the left-nested sum, started from zero, of the four sums over consecutive runs
  of 2048 positions: the order in which an accumulator that is reset and then added to four times collects it. Any
  commutative additive monoid (the extended reals among them: no finiteness is needed to regroup a finite sum).
-/
import Mathlib.Algebra.BigOperators.Fin
import Mathlib.Logic.Equiv.Fin.Basic
import Mathlib.Algebra.BigOperators.Group.Finset.Sigma

open scoped BigOperators

namespace Cert.TileSum

/-- Position `r` of run `j`. -/
def tileIdx (j : Fin 4) (r : Fin 2048) : Fin 8192 :=
  ⟨2048 * j.val + r.val, by have := j.isLt; have := r.isLt; omega⟩

/-- The sum over all positions is the sum over the runs of the sums inside each run. -/
theorem sum_eq_sum_tiles {M : Type*} [AddCommMonoid M] (f : Fin 8192 → M) :
    ∑ s : Fin 8192, f s = ∑ j : Fin 4, ∑ r : Fin 2048, f (tileIdx j r) := by
  have e : ∑ p : Fin 4 × Fin 2048, f (finProdFinEquiv p) = ∑ s : Fin 8192, f s :=
    Equiv.sum_comp (finProdFinEquiv (m := 4) (n := 2048)) f
  rw [← e, Fintype.sum_prod_type]
  refine Finset.sum_congr rfl fun j _ => Finset.sum_congr rfl fun r _ => congrArg f (Fin.ext ?_)
  show r.val + 2048 * j.val = 2048 * j.val + r.val
  omega

/-- The same, in the accumulator's order: `(((0 + run 0) + run 1) + run 2) + run 3`. -/
theorem sum_eq_chain {M : Type*} [AddCommMonoid M] (f : Fin 8192 → M) :
    ∑ s : Fin 8192, f s
      = (((0 + ∑ r : Fin 2048, f (tileIdx 0 r)) + ∑ r : Fin 2048, f (tileIdx 1 r)) + ∑ r : Fin 2048, f (tileIdx 2 r))
          + ∑ r : Fin 2048, f (tileIdx 3 r) := by
  rw [sum_eq_sum_tiles, Fin.sum_univ_four, zero_add]

end Cert.TileSum
-- ==== Proof.TileValue.lean ====
/-
  The kernel body's pure payloads, read at an index, against the specification.

  One grid point's blocks are an embedding tile [1, 2048, 256], a mask tile [1, 64, 2048], the two weight matrices
  with their biases and the query matrix. The value tile and the key tile are matrix products into a zero accumulator
  (a sum over the contraction coordinate of the products of the operands' entries) plus a bias row broadcast over the
  rows; the logits are a second product, scaled, and replaced by a constant where the mask word is zero: entry by
  entry, the value row and the masked logit of the specification at batch extent 1 and sequence extent 2048. The
  weight row is, per column, the exponential of slot 3 shifted by the maximum over the 64 slots, over the sum of the
  shifted exponentials: the specification's weight. The three stored blocks are the weight row itself, its sum over
  the 2048 positions added to the loaded entry, and its product with the value tile added to the loaded row; both
  accumulators start from zero.
-/
import proofs.«134120_j17386027614758_1_alg».proof.Proof.Gen.KernelIdeal.Skeleton
import proofs.«134120_j17386027614758_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-! ### A plain matrix product into zero, at an index -/

/-- The dimension numbers of an [m, k] by [k, n] product: the left operand's columns against the right operand's rows. -/
abbrev plainD {m k n : Nat} (wf : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

/-- Such a product into the zero accumulator, read at (i, j): the sum over q of left (i, q) times right (q, j). -/
theorem matmul2_zero_apply {m k n : Nat} {φ₁ φ₂ : FTy}
    (wf : DotDims.WF ⟨2, ![m, k]⟩ ⟨2, ![k, n]⟩ ⟨2, ![m, n]⟩ [1] [0] [0] [1] [] [])
    (prec : Option ContractPrecision) (lhs : FVec Ideal ⟨2, ![m, k]⟩ φ₁) (rhs : FVec Ideal ⟨2, ![k, n]⟩ φ₂)
    (i : Fin m) (j : Fin n) :
    FloatOps.matmul (plainD wf) prec lhs rhs (constant (F := Ideal) ⟨2, ![m, n]⟩ .f32 0x00000000#32) (ix2 i j)
      = ∑ q : Fin k, lhs (ix2 i q) * rhs (ix2 q j) := by
  rw [Ideal.matmul_constant_zero_apply, ← Equiv.sum_comp (contrEquiv1 (plainD wf) k rfl rfl).symm]
  refine Finset.sum_congr rfl fun q _ => ?_
  have hk := contrEquiv1_symm_val (plainD wf) k rfl rfl q
  have el : (plainD wf).lhsIdx (ix2 i j) ((contrEquiv1 (plainD wf) k rfl rfl).symm q) = ix2 i q :=
    funext fun a => Fin.ext (by
      match a with
      | ⟨0, h0⟩ =>
        unfold DotDims.lhsIdx
        rw [dif_neg List.not_mem_nil,
          dif_pos (show (⟨0, h0⟩ : Fin 2) ∈ (plainD wf).lhsNonContracting from List.mem_singleton.mpr rfl)]
        rfl
      | ⟨1, _⟩ => exact (DotDims.lhsIdx_val_of_single (plainD wf) rfl _ _).trans hk)
  have er : (plainD wf).rhsIdx (ix2 i j) ((contrEquiv1 (plainD wf) k rfl rfl).symm q) = ix2 q j :=
    funext fun a => Fin.ext (by
      match a with
      | ⟨0, _⟩ => exact (DotDims.rhsIdx_val_of_single (plainD wf) rfl _ _).trans hk
      | ⟨1, h1⟩ =>
        unfold DotDims.rhsIdx
        rw [dif_neg List.not_mem_nil,
          dif_pos (show (⟨1, h1⟩ : Fin 2) ∈ (plainD wf).rhsNonContracting from List.mem_singleton.mpr rfl)]
        rfl)
  rw [el, er]

/-! ### The value tile and the masked-logit tile -/

section Tiles

variable (x0 : Vec Ideal S1x2048x256 .f32) (x1 : Vec Ideal S1x64x2048 .i32) (x2 : Vec Ideal S256x256 .f32)
  (x3 : Vec Ideal S256 .f32) (x4 : Vec Ideal S256x256 .f32) (x5 : Vec Ideal S256 .f32) (x6 : Vec Ideal S64x256 .f32)

/-- The affine image of the embedding tile by a weight matrix W and a bias b, at (r, e): the tile's row r against
    row e of W (the product is with the transpose of W), plus b at e. -/
theorem pay8_sum (W : Vec Ideal S256x256 .f32) (b : Vec Ideal S256 .f32) (r : Fin 2048) (e : Fin 256) :
    k0_pay8 (F := Ideal) x0 W b (ix2 r e)
      = (∑ d : Fin 256, x0 (ix3 (0 : Fin 1) r d) * W (ix2 e d)) + b (ix1 e) := by
  unfold k0_pay8 k0_pay7
  refine congrArg₂ (· + ·) ?_ ?_
  · refine (matmul2_zero_apply _ none _ _ r e).trans ?_
    refine Finset.sum_congr rfl fun d _ => ?_
    refine congrArg₂ (· * ·) ?_ ?_
    · exact shapeCast_1ab_ab_apply x0 _ r d
    · exact transpose_ix2_apply _ _ d e
  · exact (broadcastTo_1b_ab_apply _ _ r e).trans (shapeCast_a_1a_apply b _ 0 e)

/-- The value tile at (r, e): the specification's value row of position r at coordinate e. -/
theorem pay8_apply (r : Fin 2048) (e : Fin 256) :
    k0_pay8 (F := Ideal) x0 x2 x3 (ix2 r e)
      = Cert.Spec.val (⟨x0, x1, x2, x3, x4, x5, x6⟩ : Cert.Spec.Args 1 2048) 0 r e :=
  pay8_sum x0 x2 x3 r e

/-- The masked-logit tile at (n, r): the specification's masked logit of slot n at position r. -/
theorem pay9_apply (n : Fin 64) (r : Fin 2048) :
    k0_pay9 (F := Ideal) x0 x1 x4 x5 x6 (ix2 n r)
      = Cert.Spec.masked (⟨x0, x1, x2, x3, x4, x5, x6⟩ : Cert.Spec.Args 1 2048) 0 n r := by
  unfold k0_pay9 Cert.Spec.masked Cert.Spec.logit
  refine congrArg₂ (fun (c : BitVec 32) (l : EReal) =>
    Scalar.select (IntOp.cmpi .eq c 0#32) Cert.Spec.negBig (l * Cert.Spec.scale)) ?_ ?_
  · exact shapeCast_1ab_ab_apply x1 _ n r
  · refine (matmul2_zero_apply _ none _ _ n r).trans ?_
    refine Finset.sum_congr rfl fun d _ => ?_
    refine congrArg₂ (· * ·) rfl ?_
    refine (transpose_ix2_apply _ _ d r).trans ?_
    exact pay8_sum x0 x4 x5 r d

end Tiles

/-! ### The softmax weights of a tile -/

/-- A reduced column index with row k put back is (k, t). -/
theorem lift0_ix2 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- A reduced row index with column k put back is (t, k). -/
theorem lift1_ix2 {m n : Nat} (h : (⟨2, ![m, n]⟩ : Shape).Reduces [1] (⟨1, ![m]⟩ : Shape)) (t : Fin m)
    (k : Fin ((⟨2, ![m, n]⟩ : Shape).size 1)) : h.lift (ix1 t) k = ix2 t (⟨k.val, k.isLt⟩ : Fin n) := by
  funext c; apply Fin.ext
  fin_cases c <;> rfl

section Weights

variable (L : FVec Ideal S64x2048 .f32)

/-- The maximum over the 64 slots of column r, started from the word of -∞. -/
theorem colmax_apply (hr : S64x2048.Reduces [0] S2048) (hφ : FKind.Formats .f32)
    (hacc : (0xFF800000#32 : BitVec 32) = FKind.maximumf.neutral .f32 hφ) (r : Fin 2048) :
    multiReduction (F := Ideal) .maximumf [0] S2048 L 0xFF800000#32 hr hφ hacc (ix1 r)
      = (Finset.univ : Finset (Fin 64)).fold max Cert.Spec.negInf (fun n => L (ix2 n r)) := by
  refine (Ideal.multiReduction_maximumf_single L _ hr hφ hacc (ix1 r)).trans ?_
  have hf : (L ∘ hr.lift (ix1 r)) = fun k : Fin 64 => L (ix2 k r) :=
    funext fun k => congrArg L (lift0_ix2 hr r k)
  exact congrArg (fun f => Finset.fold max (Ideal.ofBits .f32 0xFF800000#32) f (Finset.univ : Finset (Fin 64))) hf

/-- The shifted exponential of slot n at column r. -/
theorem expsub_apply (hr : S64x2048.Reduces [0] S2048) (hφ : FKind.Formats .f32)
    (hacc : (0xFF800000#32 : BitVec 32) = FKind.maximumf.neutral .f32 hφ) (hsc : S2048.ShapeCasts S1x2048)
    (hb : S1x2048.Broadcasts S64x2048) (n : Fin 64) (r : Fin 2048) :
    exp (subf L (broadcastTo S64x2048 (shapeCast S1x2048
        (multiReduction (F := Ideal) .maximumf [0] S2048 L 0xFF800000#32 hr hφ hacc) hsc) hb)) (ix2 n r)
      = Ideal.exp (L (ix2 n r)
          - (Finset.univ : Finset (Fin 64)).fold max Cert.Spec.negInf (fun n => L (ix2 n r))) := by
  refine congrArg (fun m : EReal => Ideal.exp (L (ix2 n r) - m)) ?_
  refine (broadcastTo_1b_ab_apply _ hb n r).trans ?_
  refine (shapeCast_a_1a_apply _ hsc 0 r).trans ?_
  exact colmax_apply L hr hφ hacc r

/-- The weight row of a tile at (z, r), for any masked-logit tile L: the exponential of slot 3 shifted by the column's
    maximum, over the sum of the shifted exponentials of the 64 slots. -/
theorem pay1_raw (z : Fin 1) (r : Fin 2048) :
    k0_pay1 (F := Ideal) L (ix2 z r)
      = Ideal.div
          (Ideal.exp (L (ix2 (3 : Fin 64) r)
            - (Finset.univ : Finset (Fin 64)).fold max Cert.Spec.negInf (fun n => L (ix2 n r))))
          (∑ k : Fin 64, Ideal.exp (L (ix2 k r)
            - (Finset.univ : Finset (Fin 64)).fold max Cert.Spec.negInf (fun n => L (ix2 n r)))) := by
  unfold k0_pay1
  refine congrArg₂ Ideal.div ?_ ?_
  · refine (slice2_axis0_apply 3 _ _ z r (3 : Fin 64) (by have := z.isLt; omega)).trans ?_
    exact expsub_apply L _ _ _ _ _ 3 r
  · refine (shapeCast_a_1a_apply _ _ z r).trans ?_
    refine (Ideal.multiReduction_add_single _ _ _ _ _ (ix1 r)).trans ?_
    refine Finset.sum_congr rfl fun k _ => ?_
    refine (congrArg _ (lift0_ix2 _ r k)).trans ?_
    exact expsub_apply L _ _ _ _ _ ⟨k.val, k.isLt⟩ r

end Weights

/-! ### The weights, their sum and the weighted sum of the value tile, against the specification -/

section Outputs

variable (x0 : Vec Ideal S1x2048x256 .f32) (x1 : Vec Ideal S1x64x2048 .i32) (x2 : Vec Ideal S256x256 .f32)
  (x3 : Vec Ideal S256 .f32) (x4 : Vec Ideal S256x256 .f32) (x5 : Vec Ideal S256 .f32) (x6 : Vec Ideal S64x256 .f32)
  (L : FVec Ideal S64x2048 .f32)

/-- On the masked-logit tile of the specification the weight row is the specification's weight. -/
theorem pay1_apply
    (hL : ∀ n r, L (ix2 n r) = Cert.Spec.masked (⟨x0, x1, x2, x3, x4, x5, x6⟩ : Cert.Spec.Args 1 2048) 0 n r)
    (z : Fin 1) (r : Fin 2048) :
    k0_pay1 (F := Ideal) L (ix2 z r) = Cert.Spec.w (⟨x0, x1, x2, x3, x4, x5, x6⟩ : Cert.Spec.Args 1 2048) 0 r := by
  rw [pay1_raw]
  unfold Cert.Spec.w Cert.Spec.sm Cert.Spec.ex Cert.Spec.mx
  simp only [hL]

/-- The stored weight block is the weight row with a unit axis in front. -/
theorem pay4_apply (z z' : Fin 1) (r : Fin 2048) :
    k0_pay4 (F := Ideal) L (ix3 z z' r) = k0_pay1 (F := Ideal) L (ix2 z' r) := by
  unfold k0_pay4
  exact shapeCast_ab_1ab_apply _ _ z z' r

/-- The running sum of the weights: the loaded entry plus the sum of the weight row over the tile's 2048 positions. -/
theorem pay3_apply (v : Vec Ideal S1x1x1 .f32) (z z' z'' : Fin 1) :
    k0_pay3 (F := Ideal) L v (ix3 z z' z'')
      = v (ix3 z z' z'') + ∑ r : Fin 2048, k0_pay1 (F := Ideal) L (ix2 (0 : Fin 1) r) := by
  obtain rfl : z = 0 := Subsingleton.elim _ _
  obtain rfl : z'' = 0 := Subsingleton.elim _ _
  unfold k0_pay3
  refine (shapeCast_ab_1ab_apply _ _ 0 z' 0).trans ?_
  refine congrArg₂ (· + ·) ?_ ?_
  · exact shapeCast_1ab_ab_apply v _ z' 0
  · refine (shapeCast_a_1a_apply _ _ z' 0).trans ?_
    refine (Ideal.multiReduction_add_single _ _ _ _ _ (ix1 (0 : Fin 1))).trans ?_
    exact Finset.sum_congr rfl fun k _ => congrArg _ (lift1_ix2 _ (0 : Fin 1) k)

/-- The running weighted sum: the loaded entry plus the weight row times the value tile's column e. -/
theorem pay2_apply (V : FVec Ideal S2048x256 .f32) (v : Vec Ideal S1x1x256 .f32) (z z' : Fin 1) (e : Fin 256) :
    k0_pay2 (F := Ideal) V L v (ix3 z z' e)
      = v (ix3 z z' e) + ∑ r : Fin 2048, k0_pay1 (F := Ideal) L (ix2 (0 : Fin 1) r) * V (ix2 r e) := by
  obtain rfl : z = 0 := Subsingleton.elim _ _
  obtain rfl : z' = 0 := Subsingleton.elim _ _
  unfold k0_pay2
  refine (shapeCast_ab_1ab_apply _ _ 0 0 e).trans ?_
  refine congrArg₂ (· + ·) ?_ ?_
  · exact shapeCast_1ab_ab_apply v _ 0 e
  · exact matmul2_zero_apply _ none _ _ 0 e

/-- The two accumulators start from zero. -/
theorem pay5_apply (i : S1x1x256.Idx) : k0_pay5 (F := Ideal) i = 0 := Ideal.ofBits_zero_f32
theorem pay6_apply (i : S1x1x1.Idx) : k0_pay6 (F := Ideal) i = 0 := Ideal.ofBits_zero_f32

end Outputs

end Cert.KernelIdeal.TileValue

end
-- ==== Proof.TileStep.lean ====
/-
  One tile's contribution to each output block, as numbers of the whole arrays.

  At grid point t the masked-logit tile and the value tile are the specification's masked logits and value rows of
  the point's blocks (one batch row, 2048 positions), so the weight row is the specification's weight there; and
  position r of the tile is position 2048 · (t mod 4) + r of batch row t / 4 of the whole arrays, where the weight
  and the value row depend only on that position's embedding row and mask column. Hence the stored weight block holds
  the whole arrays' weights of the tile's positions, the running sum grows by their sum, and the running weighted sum
  by the sum of weight times value row; both accumulators start from zero.
-/
import proofs.«134120_j17386027614758_1_alg».proof.Proof.Outs
import proofs.«134120_j17386027614758_1_alg».proof.Proof.Blocks
import proofs.«134120_j17386027614758_1_alg».proof.Proof.TileValue

noncomputable section

namespace Cert.KernelIdeal.TileStep

open Cert.KernelIdeal Cert.KernelIdeal.Gen Cert.KernelIdeal.Pieces Cert.KernelIdeal.Blocks
open Idealize.ShloMosaic Idealize.ShloMosaic.TcCoe Idealize.SL.Sem Idealize.ShloMosaic.ValueIdx
open Cert.Spec (w val)

variable (m : (ℓ : Loc nD τ sig) → Buf (Elt Ideal) ℓ)

/-- The weight row of the tile at t, at position r, is the whole arrays' weight of that position. -/
theorem wrow (c : Dev nD) (t : Fin cfg0.N) (z : Fin 1) (r : Fin 2048) :
    k0_pay1 (lgt m c t) (ix2 z r) = w (args m c) (bOf t) (sOf t r) := by
  have h : k0_pay1 (lgt m c t) (ix2 z r) = w (tile m c t) 0 r :=
    TileValue.pay1_apply (iblk m c 0 t) (iblk m c 1 t) (iblk m c 2 t) (iblk m c 3 t) (iblk m c 4 t) (iblk m c 5 t)
      (iblk m c 6 t) (lgt m c t)
      (fun n r => TileValue.pay9_apply (iblk m c 0 t) (iblk m c 1 t) (iblk m c 2 t) (iblk m c 3 t) (iblk m c 4 t)
        (iblk m c 5 t) (iblk m c 6 t) n r) z r
  exact h.trans (Cert.Spec.w_congr (sameAt m c t r))

/-- The value tile at t, at (r, e), is the whole arrays' value row of that position at e. -/
theorem vrow (c : Dev nD) (t : Fin cfg0.N) (r : Fin 2048) (e : Fin 256) :
    vls m c t (ix2 r e) = val (args m c) (bOf t) (sOf t r) e := by
  have h : vls m c t (ix2 r e) = val (tile m c t) 0 r e :=
    TileValue.pay8_apply (iblk m c 0 t) (iblk m c 1 t) (iblk m c 2 t) (iblk m c 3 t) (iblk m c 4 t) (iblk m c 5 t)
      (iblk m c 6 t) r e
  exact h.trans (Cert.Spec.val_congr (sameAt m c t r) e)

theorem step4 (c : Dev nD) (t : Fin cfg0.N) (r : Fin 2048) :
    k0_pay4 (lgt m c t) (ix3 (0 : Fin 1) (0 : Fin 1) r) = w (args m c) (bOf t) (sOf t r) :=
  (TileValue.pay4_apply (lgt m c t) 0 0 r).trans (wrow m c t 0 r)

theorem step3 (c : Dev nD) (t : Fin cfg0.N) (v : Vec Ideal S1x1x1 .f32) :
    k0_pay3 (lgt m c t) v (ix3 (0 : Fin 1) (0 : Fin 1) (0 : Fin 1))
      = v (ix3 (0 : Fin 1) (0 : Fin 1) (0 : Fin 1)) + ∑ r : Fin 2048, w (args m c) (bOf t) (sOf t r) :=
  (TileValue.pay3_apply (lgt m c t) v 0 0 0).trans
    (congrArg (v (ix3 (0 : Fin 1) (0 : Fin 1) (0 : Fin 1)) + ·) (Finset.sum_congr rfl fun r _ => wrow m c t 0 r))

theorem step2 (c : Dev nD) (t : Fin cfg0.N) (v : Vec Ideal S1x1x256 .f32) (e : Fin 256) :
    k0_pay2 (vls m c t) (lgt m c t) v (ix3 (0 : Fin 1) (0 : Fin 1) e)
      = v (ix3 (0 : Fin 1) (0 : Fin 1) e) + ∑ r : Fin 2048, w (args m c) (bOf t) (sOf t r) * val (args m c) (bOf t) (sOf t r) e :=
  (TileValue.pay2_apply (lgt m c t) (vls m c t) v 0 0 e).trans
    (congrArg (v (ix3 (0 : Fin 1) (0 : Fin 1) e) + ·)
      (Finset.sum_congr rfl fun r _ => congrArg₂ (· * ·) (wrow m c t 0 r) (vrow m c t r e)))

theorem zero5 (i : S1x1x256.Idx) : k0_pay5 (F := Ideal) i = 0 := TileValue.pay5_apply i

theorem zero6 (i : S1x1x1.Idx) : k0_pay6 (F := Ideal) i = 0 := TileValue.pay6_apply i

end Cert.KernelIdeal.TileStep

end
-- ==== Proof.PointValue.lean ====
/-
  What the output blocks hold, as numbers, after a grid point.
-/
import proofs.«134120_j17386027614758_1_alg».proof.Proof.Rows
import proofs.«134120_j17386027614758_1_alg».proof.Proof.Blocks
import proofs.«134120_j17386027614758_1_alg».proof.Proof.LibTileSum
import proofs.«134120_j17386027614758_1_alg».proof.Proof.TileStep

noncomputable section

namespace Cert.KernelIdeal.PointValue

open Cert.KernelIdeal Cert.KernelIdeal.Gen Cert.KernelIdeal.Pieces Cert.KernelIdeal.Blocks Cert.KernelIdeal.TileStep
open Idealize.ShloMosaic Idealize.ShloMosaic.TcCoe Idealize.SL.Sem Idealize.ShloMosaic.ValueIdx
open Cert.Spec (w val den)
open Cert.TileSum

variable (m : (ℓ : Loc nD τ sig) → Buf (Elt Ideal) ℓ)

/-- The third output block after point `t` holds the weights of the tile's positions. -/
theorem weights_at (c : Dev nD) (t : Fin cfg0.N) (r : Fin 2048) :
    (outsAt0 m c t.val t.isLt).2.2 (ix3 (0 : Fin 1) (0 : Fin 1) r) = w (args m c) (bOf t) (sOf t r) := by
  rw [outsAt_weights m c t]
  exact step4 m c t r

/-- A point at a batch row's last tile is `n + 3` with `n` a multiple of four. -/
theorem last_tile (t : Fin cfg0.N) (h3 : t.val % 4 = 3) :
    ∃ (n : ℕ) (hn : n + 1 + 1 + 1 < cfg0.N), n % 4 = 0 ∧ t = ⟨n + 1 + 1 + 1, hn⟩ :=
  ⟨t.val - 3, by have := t.isLt; omega, by omega, Fin.ext (by show t.val = t.val - 3 + 1 + 1 + 1; omega)⟩

/-- After a batch row's last tile the second output block holds the sum of the row's weights. -/
theorem den_at (c : Dev nD) (t : Fin cfg0.N) (h3 : t.val % 4 = 3) :
    (outsAt0 m c t.val t.isLt).2.1 (ix3 (0 : Fin 1) (0 : Fin 1) (0 : Fin 1)) = den (args m c) (bOf t) := by
  obtain ⟨n, hn, h0, rfl⟩ := last_tile t h3
  have hN : cfg0.N = 64 := N64
  show (outsAt0 m c (n + 1 + 1 + 1) hn).2.1 _ = _
  rw [outsAt_row m c n hn h0]
  dsimp only
  rw [step3, step3, step3, step3, zero6]
  have hb2 : bOf ⟨n + 1 + 1, Nat.lt_of_succ_lt hn⟩ = bOf ⟨n + 1 + 1 + 1, hn⟩ := Fin.ext (by show (n + 1 + 1) / 4 = (n + 1 + 1 + 1) / 4; omega)
  have hb1 : bOf ⟨n + 1, Nat.lt_of_succ_lt (Nat.lt_of_succ_lt hn)⟩ = bOf ⟨n + 1 + 1 + 1, hn⟩ := Fin.ext (by show (n + 1) / 4 = (n + 1 + 1 + 1) / 4; omega)
  have hb0 : bOf ⟨n, Nat.lt_of_succ_lt (Nat.lt_of_succ_lt (Nat.lt_of_succ_lt hn))⟩ = bOf ⟨n + 1 + 1 + 1, hn⟩ := Fin.ext (by show n / 4 = (n + 1 + 1 + 1) / 4; omega)
  have hs3 : ∀ r, sOf ⟨n + 1 + 1 + 1, hn⟩ r = tileIdx 3 r := fun r => Fin.ext (by show 2048 * ((n + 1 + 1 + 1) % 4) + r.val = 2048 * 3 + r.val; omega)
  have hs2 : ∀ r, sOf ⟨n + 1 + 1, Nat.lt_of_succ_lt hn⟩ r = tileIdx 2 r := fun r => Fin.ext (by show 2048 * ((n + 1 + 1) % 4) + r.val = 2048 * 2 + r.val; omega)
  have hs1 : ∀ r, sOf ⟨n + 1, Nat.lt_of_succ_lt (Nat.lt_of_succ_lt hn)⟩ r = tileIdx 1 r := fun r => Fin.ext (by show 2048 * ((n + 1) % 4) + r.val = 2048 * 1 + r.val; omega)
  have hs0 : ∀ r, sOf ⟨n, Nat.lt_of_succ_lt (Nat.lt_of_succ_lt (Nat.lt_of_succ_lt hn))⟩ r = tileIdx 0 r := fun r => Fin.ext (by show 2048 * (n % 4) + r.val = 2048 * 0 + r.val; omega)
  simp only [hb2, hb1, hb0, hs3, hs2, hs1, hs0]
  unfold den
  exact (sum_eq_chain (fun s => w (args m c) (bOf ⟨n + 1 + 1 + 1, hn⟩) s)).symm

/-- After a batch row's last tile the first output block holds the weighted sum of the row's value rows. -/
theorem num_at (c : Dev nD) (t : Fin cfg0.N) (h3 : t.val % 4 = 3) (e : Fin 256) :
    (outsAt0 m c t.val t.isLt).1 (ix3 (0 : Fin 1) (0 : Fin 1) e)
      = ∑ s : Fin 8192, w (args m c) (bOf t) s * val (args m c) (bOf t) s e := by
  obtain ⟨n, hn, h0, rfl⟩ := last_tile t h3
  have hN : cfg0.N = 64 := N64
  show (outsAt0 m c (n + 1 + 1 + 1) hn).1 _ = _
  rw [outsAt_row m c n hn h0]
  dsimp only
  rw [step2, step2, step2, step2, zero5]
  have hb2 : bOf ⟨n + 1 + 1, Nat.lt_of_succ_lt hn⟩ = bOf ⟨n + 1 + 1 + 1, hn⟩ := Fin.ext (by show (n + 1 + 1) / 4 = (n + 1 + 1 + 1) / 4; omega)
  have hb1 : bOf ⟨n + 1, Nat.lt_of_succ_lt (Nat.lt_of_succ_lt hn)⟩ = bOf ⟨n + 1 + 1 + 1, hn⟩ := Fin.ext (by show (n + 1) / 4 = (n + 1 + 1 + 1) / 4; omega)
  have hb0 : bOf ⟨n, Nat.lt_of_succ_lt (Nat.lt_of_succ_lt (Nat.lt_of_succ_lt hn))⟩ = bOf ⟨n + 1 + 1 + 1, hn⟩ := Fin.ext (by show n / 4 = (n + 1 + 1 + 1) / 4; omega)
  have hs3 : ∀ r, sOf ⟨n + 1 + 1 + 1, hn⟩ r = tileIdx 3 r := fun r => Fin.ext (by show 2048 * ((n + 1 + 1 + 1) % 4) + r.val = 2048 * 3 + r.val; omega)
  have hs2 : ∀ r, sOf ⟨n + 1 + 1, Nat.lt_of_succ_lt hn⟩ r = tileIdx 2 r := fun r => Fin.ext (by show 2048 * ((n + 1 + 1) % 4) + r.val = 2048 * 2 + r.val; omega)
  have hs1 : ∀ r, sOf ⟨n + 1, Nat.lt_of_succ_lt (Nat.lt_of_succ_lt hn)⟩ r = tileIdx 1 r := fun r => Fin.ext (by show 2048 * ((n + 1) % 4) + r.val = 2048 * 1 + r.val; omega)
  have hs0 : ∀ r, sOf ⟨n, Nat.lt_of_succ_lt (Nat.lt_of_succ_lt (Nat.lt_of_succ_lt hn))⟩ r = tileIdx 0 r := fun r => Fin.ext (by show 2048 * (n % 4) + r.val = 2048 * 0 + r.val; omega)
  simp only [hb2, hb1, hb0, hs3, hs2, hs1, hs0]
  exact (sum_eq_chain (fun s => w (args m c) (bOf ⟨n + 1 + 1 + 1, hn⟩) s * val (args m c) (bOf ⟨n + 1 + 1 + 1, hn⟩) s e)).symm

end Cert.KernelIdeal.PointValue

end
-- ==== Proof.Final.lean ====
/-
  From blocks to arrays: what the three output arrays hold after the region.

  The first two output windows (one block per batch row) are written back after the row's last tile, when they hold
  the row's weighted sum of value rows and the row's sum of weights; the third (one block per tile) is written back
  after every point with that tile's weights. Every index of each array lies in exactly such a block, so after the
  region the arrays are, index by index: the weighted sums, the sums of weights, and the weights.
-/
import proofs.«134120_j17386027614758_1_alg».proof.Proof.PointValue
import Idealize.ShloMosaic.Lib.Pipeline.Value

noncomputable section

namespace Cert.KernelIdeal.Final

open Cert.KernelIdeal Cert.KernelIdeal.Gen Cert.KernelIdeal.Pieces Cert.KernelIdeal.Blocks Cert.KernelIdeal.PointValue
open Idealize.ShloMosaic Idealize.ShloMosaic.TcCoe Idealize.SL.Sem Idealize.ShloMosaic.ValueIdx
open Idealize.ShloMosaic.Pipeline (Dat)
open Cert.Spec (w val den)

variable (m : (ℓ : Loc nD τ sig) → Buf (Elt Ideal) ℓ)

/-- The weighted sums of value rows, as the first output array. -/
def numArr (c : Dev nD) : FVec Ideal S16x1x256 .f32 :=
  fun i => ∑ s : Fin 8192, w (args m c) (i 0) s * val (args m c) (i 0) s (i 2)
/-- The sums of weights, as the second output array. -/
def denArr (c : Dev nD) : FVec Ideal S16x1x1 .f32 :=
  fun i => den (args m c) (i 0)
/-- The weights, as the third output array. -/
def wArr (c : Dev nD) : FVec Ideal S16x1x8192 .f32 :=
  fun i => w (args m c) (i 0) (i 2)

theorem idx7 : ∀ t : Fin cfg0.N, win0_7.index t 0 = t.val / 4 ∧ win0_7.index t 1 = 0 ∧ win0_7.index t 2 = 0 :=
  (by decide +kernel : ∀ t : Fin grid0.N, win0_7.index t 0 = t.val / 4 ∧ win0_7.index t 1 = 0 ∧ win0_7.index t 2 = 0)
theorem idx8 : ∀ t : Fin cfg0.N, win0_8.index t 0 = t.val / 4 ∧ win0_8.index t 1 = 0 ∧ win0_8.index t 2 = 0 :=
  (by decide +kernel : ∀ t : Fin grid0.N, win0_8.index t 0 = t.val / 4 ∧ win0_8.index t 1 = 0 ∧ win0_8.index t 2 = 0)
theorem idx9 : ∀ t : Fin cfg0.N, win0_9.index t 0 = t.val / 4 ∧ win0_9.index t 1 = 0 ∧ win0_9.index t 2 = t.val % 4 :=
  (by decide +kernel : ∀ t : Fin grid0.N, win0_9.index t 0 = t.val / 4 ∧ win0_9.index t 1 = 0 ∧ win0_9.index t 2 = t.val % 4)

/-! ## The per-point values at any index of a block -/

theorem num_at' (c : Dev nD) (t : Fin cfg0.N) (h3 : t.val % 4 = 3) (j : S1x1x256.Idx) :
    (outsAt0 m c t.val t.isLt).1 j = ∑ s : Fin 8192, w (args m c) (bOf t) s * val (args m c) (bOf t) s (j 2) := by
  obtain ⟨z, z', e, rfl⟩ : ∃ (z : Fin 1) (z' : Fin 1) (e : Fin 256), j = ix3 z z' e := ⟨j 0, j 1, j 2, eq_ix3 j⟩
  obtain rfl : z = 0 := Subsingleton.elim _ _
  obtain rfl : z' = 0 := Subsingleton.elim _ _
  exact num_at m c t h3 e

theorem den_at' (c : Dev nD) (t : Fin cfg0.N) (h3 : t.val % 4 = 3) (j : S1x1x1.Idx) :
    (outsAt0 m c t.val t.isLt).2.1 j = den (args m c) (bOf t) := by
  obtain ⟨z, z', z'', rfl⟩ : ∃ (z : Fin 1) (z' : Fin 1) (z'' : Fin 1), j = ix3 z z' z'' := ⟨j 0, j 1, j 2, eq_ix3 j⟩
  obtain rfl : z = 0 := Subsingleton.elim _ _
  obtain rfl : z' = 0 := Subsingleton.elim _ _
  obtain rfl : z'' = 0 := Subsingleton.elim _ _
  exact den_at m c t h3

theorem weights_at' (c : Dev nD) (t : Fin cfg0.N) (j : S1x1x2048.Idx) :
    (outsAt0 m c t.val t.isLt).2.2 j = w (args m c) (bOf t) (sOf t (j 2)) := by
  obtain ⟨z, z', r, rfl⟩ : ∃ (z : Fin 1) (z' : Fin 1) (r : Fin 2048), j = ix3 z z' r := ⟨j 0, j 1, j 2, eq_ix3 j⟩
  obtain rfl : z = 0 := Subsingleton.elim _ _
  obtain rfl : z' = 0 := Subsingleton.elim _ _
  exact weights_at m c t r

/-! ## What each point writes back -/

theorem flushed7_eq (c : Dev nD) (t : Fin cfg0.N) (hf : (cfg0.win 7).flush t = true) :
    (dats m 0 c).flushed 7 t = ((cfg0.win 7).blk t).view.read (Elt Ideal) (numArr m c) := by
  have h3 : t.val % 4 = 3 := (flush0_7 t).mp hf
  show (cfg0.win 7).cut (grid0.coords t) ((dats m 0 c).after 7 t) = _
  rw [after0_7]
  funext y
  rw [View.read_apply]
  refine (num_at' m c t h3 y).trans ?_
  unfold numArr
  have hy0 : (y 0).val < 1 := (y 0).isLt
  have h0 : (((cfg0.win 7).blk t).view.emb y 0 : Fin 16) = bOf t := Fin.ext (by
    show win0_7.index t 0 * 1 + 1 * (y 0).val = t.val / 4; rw [(idx7 t).1]; omega)
  have h2 : (((cfg0.win 7).blk t).view.emb y 2 : Fin 256) = y 2 := Fin.ext (by
    show win0_7.index t 2 * 256 + 1 * (y 2).val = (y 2).val; rw [(idx7 t).2.2]; omega)
  rw [h0, h2]
  rfl

theorem flushed8_eq (c : Dev nD) (t : Fin cfg0.N) (hf : (cfg0.win 8).flush t = true) :
    (dats m 0 c).flushed 8 t = ((cfg0.win 8).blk t).view.read (Elt Ideal) (denArr m c) := by
  have h3 : t.val % 4 = 3 := (flush0_8 t).mp hf
  show (cfg0.win 8).cut (grid0.coords t) ((dats m 0 c).after 8 t) = _
  rw [after0_8]
  funext y
  rw [View.read_apply]
  refine (den_at' m c t h3 y).trans ?_
  unfold denArr
  have hy0 : (y 0).val < 1 := (y 0).isLt
  have h0 : (((cfg0.win 8).blk t).view.emb y 0 : Fin 16) = bOf t := Fin.ext (by
    show win0_8.index t 0 * 1 + 1 * (y 0).val = t.val / 4; rw [(idx8 t).1]; omega)
  rw [h0]
  rfl

theorem flushed9_eq (c : Dev nD) (t : Fin cfg0.N) (hf : (cfg0.win 9).flush t = true) :
    (dats m 0 c).flushed 9 t = ((cfg0.win 9).blk t).view.read (Elt Ideal) (wArr m c) := by
  show (cfg0.win 9).cut (grid0.coords t) ((dats m 0 c).after 9 t) = _
  rw [after0_9]
  funext y
  rw [View.read_apply]
  refine (weights_at' m c t y).trans ?_
  unfold wArr
  have hy0 : (y 0).val < 1 := (y 0).isLt
  have h0 : (((cfg0.win 9).blk t).view.emb y 0 : Fin 16) = bOf t := Fin.ext (by
    show win0_9.index t 0 * 1 + 1 * (y 0).val = t.val / 4; rw [(idx9 t).1]; omega)
  have h2 : (((cfg0.win 9).blk t).view.emb y 2 : Fin 8192) = sOf t (y 2) := Fin.ext (by
    show win0_9.index t 2 * 2048 + 1 * (y 2).val = 2048 * (t.val % 4) + (y 2).val; rw [(idx9 t).2.2]; omega)
  rw [h0, h2]
  rfl

/-! ## Which indices a block holds -/

theorem mem_blk7 (t : Fin cfg0.N) (i : S16x1x256.Idx) :
    i ∈ ((cfg0.win 7).blk t).view.set ↔ ∀ a : Fin 3, win0_7.index t a * S1x1x256.size a ≤ (i a).val ∧ (i a).val < win0_7.index t a * S1x1x256.size a + S1x1x256.size a := by
  show i ∈ ((View.whole main_v0_0).slice (win0_7.rect t)).set ↔ _
  rw [View.set_slice_whole, Rect.mem_set_unit]
  exact Iff.rfl

theorem mem_blk8 (t : Fin cfg0.N) (i : S16x1x1.Idx) :
    i ∈ ((cfg0.win 8).blk t).view.set ↔ ∀ a : Fin 3, win0_8.index t a * S1x1x1.size a ≤ (i a).val ∧ (i a).val < win0_8.index t a * S1x1x1.size a + S1x1x1.size a := by
  show i ∈ ((View.whole main_v0_1).slice (win0_8.rect t)).set ↔ _
  rw [View.set_slice_whole, Rect.mem_set_unit]
  exact Iff.rfl

theorem mem_blk9 (t : Fin cfg0.N) (i : S16x1x8192.Idx) :
    i ∈ ((cfg0.win 9).blk t).view.set ↔ ∀ a : Fin 3, win0_9.index t a * S1x1x2048.size a ≤ (i a).val ∧ (i a).val < win0_9.index t a * S1x1x2048.size a + S1x1x2048.size a := by
  show i ∈ ((View.whole main_v0_2).slice (win0_9.rect t)).set ↔ _
  rw [View.set_slice_whole, Rect.mem_set_unit]
  exact Iff.rfl

/-! ## The arrays after the region -/

/-- The point after which batch row `b`'s accumulators are written back: its last tile. -/
def lastPt (b : Fin 16) : Fin cfg0.N := ⟨4 * b.val + 3, by have := b.isLt; rw [N64]; omega⟩
/-- The point whose tile holds position `s` of batch row `b`. -/
def ptOf (b : Fin 16) (s : Fin 8192) : Fin cfg0.N := ⟨4 * b.val + s.val / 2048, by have := b.isLt; have := s.isLt; rw [N64]; omega⟩

/-- Batch row `b`'s block of the first output array is written back after the row's last tile. -/
theorem final7 (c : Dev nD) : (dats m 0 c).arrAt 7 cfg0.N = numArr m c :=
  (dats m 0 c).arrAt_eq_of_cover 7 (numArr m c) (flushed7_eq m c) fun i => by
    have hi0 : (i 0).val < 16 := (i 0).isLt
    have hi1 : (i 1).val < 1 := (i 1).isLt
    have hi2 : (i 2).val < 256 := (i 2).isLt
    refine ⟨lastPt ⟨(i 0).val, hi0⟩, (flush0_7 _).mpr (by show (4 * (i 0).val + 3) % 4 = 3; omega), ?_⟩
    rw [mem_blk7]
    have e0 : win0_7.index (lastPt ⟨(i 0).val, hi0⟩) 0 = (i 0).val := by
      rw [(idx7 _).1]; show (4 * (i 0).val + 3) / 4 = (i 0).val; omega
    have e1 : win0_7.index (lastPt ⟨(i 0).val, hi0⟩) 1 = 0 := (idx7 _).2.1
    have e2 : win0_7.index (lastPt ⟨(i 0).val, hi0⟩) 2 = 0 := (idx7 _).2.2
    intro a
    match a with
    | ⟨0, _⟩ => show win0_7.index _ 0 * 1 ≤ (i 0).val ∧ (i 0).val < win0_7.index _ 0 * 1 + 1; rw [e0]; omega
    | ⟨1, _⟩ => show win0_7.index _ 1 * 1 ≤ (i 1).val ∧ (i 1).val < win0_7.index _ 1 * 1 + 1; rw [e1]; omega
    | ⟨2, _⟩ => show win0_7.index _ 2 * 256 ≤ (i 2).val ∧ (i 2).val < win0_7.index _ 2 * 256 + 256; rw [e2]; omega

/-- Likewise the second output array. -/
theorem final8 (c : Dev nD) : (dats m 0 c).arrAt 8 cfg0.N = denArr m c :=
  (dats m 0 c).arrAt_eq_of_cover 8 (denArr m c) (flushed8_eq m c) fun i => by
    have hi0 : (i 0).val < 16 := (i 0).isLt
    have hi1 : (i 1).val < 1 := (i 1).isLt
    have hi2 : (i 2).val < 1 := (i 2).isLt
    refine ⟨lastPt ⟨(i 0).val, hi0⟩, (flush0_8 _).mpr (by show (4 * (i 0).val + 3) % 4 = 3; omega), ?_⟩
    rw [mem_blk8]
    have e0 : win0_8.index (lastPt ⟨(i 0).val, hi0⟩) 0 = (i 0).val := by
      rw [(idx8 _).1]; show (4 * (i 0).val + 3) / 4 = (i 0).val; omega
    have e1 : win0_8.index (lastPt ⟨(i 0).val, hi0⟩) 1 = 0 := (idx8 _).2.1
    have e2 : win0_8.index (lastPt ⟨(i 0).val, hi0⟩) 2 = 0 := (idx8 _).2.2
    intro a
    match a with
    | ⟨0, _⟩ => show win0_8.index _ 0 * 1 ≤ (i 0).val ∧ (i 0).val < win0_8.index _ 0 * 1 + 1; rw [e0]; omega
    | ⟨1, _⟩ => show win0_8.index _ 1 * 1 ≤ (i 1).val ∧ (i 1).val < win0_8.index _ 1 * 1 + 1; rw [e1]; omega
    | ⟨2, _⟩ => show win0_8.index _ 2 * 1 ≤ (i 2).val ∧ (i 2).val < win0_8.index _ 2 * 1 + 1; rw [e2]; omega

/-- Position `s` of batch row `b` of the third output array is in the block of the point of tile `s / 2048`. -/
theorem final9 (c : Dev nD) : (dats m 0 c).arrAt 9 cfg0.N = wArr m c :=
  (dats m 0 c).arrAt_eq_of_cover 9 (wArr m c) (flushed9_eq m c) fun i => by
    have hi0 : (i 0).val < 16 := (i 0).isLt
    have hi1 : (i 1).val < 1 := (i 1).isLt
    have hi2 : (i 2).val < 8192 := (i 2).isLt
    refine ⟨ptOf ⟨(i 0).val, hi0⟩ ⟨(i 2).val, hi2⟩, flush0_9 _, ?_⟩
    rw [mem_blk9]
    have e0 : win0_9.index (ptOf ⟨(i 0).val, hi0⟩ ⟨(i 2).val, hi2⟩) 0 = (i 0).val := by
      rw [(idx9 _).1]; show (4 * (i 0).val + (i 2).val / 2048) / 4 = (i 0).val; omega
    have e1 : win0_9.index (ptOf ⟨(i 0).val, hi0⟩ ⟨(i 2).val, hi2⟩) 1 = 0 := (idx9 _).2.1
    have e2 : win0_9.index (ptOf ⟨(i 0).val, hi0⟩ ⟨(i 2).val, hi2⟩) 2 = (i 2).val / 2048 := by
      rw [(idx9 _).2.2]; show (4 * (i 0).val + (i 2).val / 2048) % 4 = (i 2).val / 2048; omega
    intro a
    match a with
    | ⟨0, _⟩ => show win0_9.index _ 0 * 1 ≤ (i 0).val ∧ (i 0).val < win0_9.index _ 0 * 1 + 1; rw [e0]; omega
    | ⟨1, _⟩ => show win0_9.index _ 1 * 1 ≤ (i 1).val ∧ (i 1).val < win0_9.index _ 1 * 1 + 1; rw [e1]; omega
    | ⟨2, _⟩ => show win0_9.index _ 2 * 2048 ≤ (i 2).val ∧ (i 2).val < win0_9.index _ 2 * 2048 + 2048; rw [e2]; omega

end Cert.KernelIdeal.Final

end
-- ==== Proof.Tail.lean ====
/-
  The kernel program's run, with its results named. The region leaves the weighted sums of value rows, the sums of
  weights and the weights in its three output arrays; the host tail divides the first and the third by the second. So
  the program ends with its first result at `(∑ s, w b s · val b s e) / den b` and its second at `w b s / den b`, the
  specification's sum-first weighted mean and normalized weights, and with its seven arguments as they were.
-/
import proofs.«134120_j17386027614758_1_alg».proof.Proof.TailRead
import proofs.«134120_j17386027614758_1_alg».proof.Proof.Final

noncomputable section

namespace Cert.KernelIdeal.Tail

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The weighted sums over the sums of weights are the specification's sum-first weighted mean. -/
theorem out_val (c : Dev nD) :
    tailOut ((dats m 0 c).arrAt 7 cfg0.N) ((dats m 0 c).arrAt 8 cfg0.N) = Cert.Spec.outArrK (Blocks.args m c) := by
  refine (congrArg₂ tailOut (Final.final7 m c) (Final.final8 m c)).trans ?_
  funext i
  obtain ⟨b, z, e, rfl⟩ : ∃ (b : Fin 16) (z : Fin 1) (e : Fin 256), i = ix3 b z e := ⟨i 0, i 1, i 2, eq_ix3 i⟩
  refine (tailOut_apply _ _ b z e).trans ?_
  rfl

/-- The weights over the sums of weights are the specification's normalized weights. -/
theorem attn_val (c : Dev nD) :
    tailAttn ((dats m 0 c).arrAt 9 cfg0.N) ((dats m 0 c).arrAt 8 cfg0.N) = Cert.Spec.attnArr (Blocks.args m c) := by
  refine (congrArg₂ tailAttn (Final.final9 m c) (Final.final8 m c)).trans ?_
  funext i
  obtain ⟨b, z, s, rfl⟩ : ∃ (b : Fin 16) (z : Fin 1) (s : Fin 8192), i = ix3 b z s := ⟨i 0, i 1, i 2, eq_ix3 i⟩
  refine (tailAttn_apply _ _ b z s).trans ?_
  rfl

/-- The two result buffers are unscoped and no window's array: the region passes them by. -/
theorem v4_rest : main_v4 ∈ Pipeline.restRefs sig (cfgs 0).spec :=
  Pipeline.mem_restRefs_of main_v4 rfl (by decide)
theorem v2_rest : main_v2 ∈ Pipeline.restRefs sig (cfgs 0).spec :=
  Pipeline.mem_restRefs_of main_v2 rfl (by decide)

/-- Every weakly fair execution of the kernel program terminates with its two results at the specification's arrays
    and its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = Cert.Spec.outArrK (Blocks.args m c)
      ∧ r.2.mem ((c.tc : Thread nD τ).loc main_v2) = Cert.Spec.attnArr (Blocks.args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v4 v4_rest).trans ((tail_v4 m c).trans (out_val m c)),
      ((h c).2 main_v2 v2_rest).trans ((tail_v2 m c).trans (attn_val m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Tail
end
-- ==== Proof.Algebra.lean ====
/-
  The two arrangements of the weighted mean agree when every argument entry is a real number.

  Over the extended reals the identity
    (∑ s, w b s · val b s e) / den b = ∑ s, (w b s / den b) · val b s e
  fails at infinities, so the first part of this file shows that each quantity of the specification is a real
  number once the argument entries are: the value and key rows (finite sums of products of reals, plus a real),
  the scaled logit, the masked logit (either the logit or a finite constant), the maximum over the 64 slots
  (a maximum of finitely many reals, at least one, started from -∞), the shifted exponentials (positive reals),
  their sum (positive), the weight (a quotient of positive reals) and, for a nonempty sequence, the sum of the
  weights (positive, hence not zero). The identity is then the distributive law in ℝ.
-/
import proofs.«134120_j17386027614758_1_alg».proof.Proof.Spec

noncomputable section

open scoped BigOperators

namespace Cert.Spec

open Idealize.ShloMosaic Idealize.ShloMosaic.ValueIdx

/-! ### Real numbers inside the extended reals -/

theorem real_add {x y : EReal} (hx : ∃ r : ℝ, x = (r : EReal)) (hy : ∃ r : ℝ, y = (r : EReal)) :
    ∃ r : ℝ, x + y = (r : EReal) := by
  obtain ⟨a, rfl⟩ := hx; obtain ⟨c, rfl⟩ := hy; exact ⟨a + c, (EReal.coe_add a c).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨c, rfl⟩ := hy; exact ⟨a * c, (EReal.coe_mul a c).symm⟩

/-- A finite sum of coerced reals is the coerced sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real numbers is a real number. -/
theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by simp only [hg, coe_sum]⟩

/-- A sum of positive reals over a nonempty index set is a positive real. -/
theorem pos_sum {ι : Type*} (s : Finset ι) (hs : s.Nonempty) (f : ι → EReal)
    (h : ∀ i, ∃ r : ℝ, 0 < r ∧ f i = (r : EReal)) : ∃ r : ℝ, 0 < r ∧ ∑ i ∈ s, f i = (r : EReal) := by
  choose g hpos hg using h
  exact ⟨∑ i ∈ s, g i, Finset.sum_pos (fun i _ => hpos i) hs, by simp only [hg, coe_sum]⟩

/-- The maximum of finitely many reals, at least one, started from -∞, is a real. -/
theorem real_fold_max {ι : Type*} (s : Finset ι) (hs : s.Nonempty) (f : ι → EReal)
    (h : ∀ i, ∃ r : ℝ, f i = (r : EReal)) : ∃ r : ℝ, s.fold max (⊥ : EReal) f = (r : EReal) := by
  induction hs using Finset.Nonempty.cons_induction with
  | singleton a =>
    obtain ⟨r, hr⟩ := h a
    exact ⟨r, by rw [Finset.fold_singleton, hr, max_eq_left bot_le]⟩
  | cons a s ha hs ih =>
    obtain ⟨r, hr⟩ := ih
    obtain ⟨c, hc⟩ := h a
    rw [Finset.fold_cons, hr, hc]
    rcases max_choice (c : EReal) (r : EReal) with hm | hm
    · exact ⟨c, hm⟩
    · exact ⟨r, hm⟩

/-- The quotient of a positive real by a positive real is a positive real. -/
theorem pos_div {x y : EReal} (hx : ∃ r : ℝ, 0 < r ∧ x = (r : EReal)) (hy : ∃ r : ℝ, 0 < r ∧ y = (r : EReal)) :
    ∃ r : ℝ, 0 < r ∧ Ideal.div x y = (r : EReal) := by
  obtain ⟨a, ha, rfl⟩ := hx; obtain ⟨c, hc, rfl⟩ := hy
  exact ⟨a * (1 / c), mul_pos ha (one_div_pos.mpr hc), by rw [Ideal.div_coe hc.ne', EReal.coe_mul]⟩

/-! ### The constants -/

/-- The scale is the real 1/16. -/
theorem scale_eq : scale = (((1 : ℝ) / 16 : ℝ) : EReal) := by
  simp [scale, Ideal.ofBits, Ideal.ieee, -EReal.coe_mul]; norm_num

/-- A float word whose exponent field is not all ones denotes a real number. -/
theorem real_ieee (e m : Nat) {w : Nat} (b : BitVec w) (h : (b.extractLsb' m e).toNat ≠ 2 ^ e - 1) :
    ∃ r : ℝ, Ideal.ieee e m b = (r : EReal) := by
  unfold Ideal.ieee
  simp only [if_neg h]
  split_ifs <;> exact ⟨_, rfl⟩

/-- The masking constant is a (finite) real: its exponent field is 179. -/
theorem negBig_real : ∃ r : ℝ, negBig = (r : EReal) :=
  real_ieee 8 23 (0xD9FFCB9E#32) (by decide)

/-- The start of the maxima is -∞. -/
theorem negInf_eq : negInf = ⊥ := by
  simp [negInf, Ideal.ofBits, Ideal.ieee]

/-! ### Each quantity of the specification is a real number -/

variable {B S : Nat} (A : Args B S)

theorem val_real (hA : A.Real) (b : Fin B) (s : Fin S) (e : Fin 256) : ∃ r : ℝ, val A b s e = (r : EReal) :=
  real_add (real_sum _ _ fun _ => real_mul (hA.hE _) (hA.hWv _)) (hA.hbv _)

theorem key_real (hA : A.Real) (b : Fin B) (s : Fin S) (e : Fin 256) : ∃ r : ℝ, key A b s e = (r : EReal) :=
  real_add (real_sum _ _ fun _ => real_mul (hA.hE _) (hA.hWk _)) (hA.hbk _)

theorem logit_real (hA : A.Real) (b : Fin B) (n : Fin 64) (s : Fin S) : ∃ r : ℝ, logit A b n s = (r : EReal) :=
  real_mul (real_sum _ _ fun _ => real_mul (hA.hQ _) (key_real A hA b s _)) ⟨_, scale_eq⟩

theorem masked_real (hA : A.Real) (b : Fin B) (n : Fin 64) (s : Fin S) : ∃ r : ℝ, masked A b n s = (r : EReal) := by
  unfold masked Scalar.select
  split_ifs
  · exact negBig_real
  · exact logit_real A hA b n s

theorem mx_real (hA : A.Real) (b : Fin B) (s : Fin S) : ∃ r : ℝ, mx A b s = (r : EReal) := by
  unfold mx
  rw [negInf_eq]
  exact real_fold_max _ Finset.univ_nonempty _ fun n => masked_real A hA b n s

/-- A shifted exponential is a positive real. -/
theorem ex_pos (hA : A.Real) (b : Fin B) (n : Fin 64) (s : Fin S) : ∃ r : ℝ, 0 < r ∧ ex A b n s = (r : EReal) := by
  obtain ⟨m, hm⟩ := masked_real A hA b n s
  obtain ⟨t, ht⟩ := mx_real A hA b s
  exact ⟨Real.exp (m - t), Real.exp_pos _, by rw [ex, hm, ht, ← EReal.coe_sub, Ideal.exp_coe]⟩

theorem sm_pos (hA : A.Real) (b : Fin B) (s : Fin S) : ∃ r : ℝ, 0 < r ∧ sm A b s = (r : EReal) :=
  pos_sum _ Finset.univ_nonempty _ fun n => ex_pos A hA b n s

/-- A weight is a positive real. -/
theorem w_pos (hA : A.Real) (b : Fin B) (s : Fin S) : ∃ r : ℝ, 0 < r ∧ w A b s = (r : EReal) :=
  pos_div (ex_pos A hA b 3 s) (sm_pos A hA b s)

/-- For a nonempty sequence the sum of the weights is a positive real. -/
theorem den_pos (hA : A.Real) (hS : 0 < S) (b : Fin B) : ∃ r : ℝ, 0 < r ∧ den A b = (r : EReal) :=
  haveI : Nonempty (Fin S) := ⟨⟨0, hS⟩⟩
  pos_sum _ Finset.univ_nonempty _ fun s => w_pos A hA b s

/-! ### The two arrangements agree -/

/-- Dividing the finished sum by the sum of the weights, or each weight first: the same real number. -/
theorem outK_eq_outR (hA : A.Real) (hS : 0 < S) (b : Fin B) (e : Fin 256) : outK A b e = outR A b e := by
  choose ω _ hω using w_pos A hA b
  choose v hv using fun s => val_real A hA b s e
  obtain ⟨D, hD, hden⟩ := den_pos A hA hS b
  unfold outK outR
  simp only [hω, hv, hden, Ideal.div_coe hD.ne', ← EReal.coe_mul, coe_sum]
  rw [Finset.sum_mul]
  congr 1
  refine Finset.sum_congr rfl fun s _ => ?_
  ring

theorem outArrK_eq_outArrR (hA : A.Real) (hS : 0 < S) : outArrK A = outArrR A := by
  funext i
  exact outK_eq_outR A hA hS (i 0) (i 2)

end Cert.Spec

end
-- ==== Proof.RefConsts.lean ====
/-
  The float constant the reference program spells for its divisor, as the extended real its word denotes: `256`,
  whose square root `16` divides the logits, so that the division is the multiplication by the scale `1/16`.
-/
import Idealize.ShloMosaic.PureOps.Ideal
import proofs.«134120_j17386027614758_1_alg».proof.Proof.Algebra

noncomputable section

namespace Cert.RefValue

open Idealize.ShloMosaic

/-- The word of `256.0` denotes the real `256`. -/
theorem ofBits_256 : Ideal.ofBits .f32 0x43800000#32 = ((256 : ℝ) : EReal) := by
  simp [Ideal.ofBits, Ideal.ieee, -EReal.coe_mul]; norm_num

/-- `√256 = 16`. -/
theorem sqrt_256 : Ideal.sqrt (Ideal.ofBits .f32 0x43800000#32) = ((16 : ℝ) : EReal) := by
  rw [ofBits_256, Ideal.sqrt_coe, if_neg (by norm_num)]
  congr 1
  rw [show (256 : ℝ) = 16 ^ 2 by norm_num]
  exact Real.sqrt_sq (by norm_num)

/-- Dividing by `√256` is multiplying by the scale `1/16`. -/
theorem div_sqrt_256 (x : EReal) :
    Ideal.div x (Ideal.sqrt (Ideal.ofBits .f32 0x43800000#32)) = x * Cert.Spec.scale := by
  rw [sqrt_256, Ideal.div_coe (by norm_num : (16 : ℝ) ≠ 0), Cert.Spec.scale_eq]

end Cert.RefValue
end
-- ==== Proof.RefLogit.lean ====
/-
  The reference program's first stages read at plain coordinates: the value rows, the key rows, the scaled logits and
  the masked logits are the specification's `val`, `key`, `logit` and `masked`.
-/
import proofs.«134120_j17386027614758_1_alg».proof.Proof.Gen.ReferenceIdeal.Read
import proofs.«134120_j17386027614758_1_alg».proof.Proof.Spec
import proofs.«134120_j17386027614758_1_alg».proof.Proof.RefConsts

noncomputable section

open scoped BigOperators

namespace Cert.RefValue

open Cert.ReferenceIdeal Cert.ReferenceIdeal.Read Idealize.ShloMosaic Idealize.ShloMosaic.ValueIdx Cert.Spec

variable (A : Args 16 8192)

/-- The value stage at `(b, s, e)` is `(∑ d, E b s d · Wv e d) + bv e`. -/
theorem v3_at (b : Fin 16) (s : Fin 8192) (e : Fin 256) :
    val_main_v3 (F := Ideal) A.E A.Wv A.bv (ix3 b s e) = val A b s e := by
  rw [val_main_v3_apply, val_main_v0_apply, val_main_v2_apply, val_main_v1_apply]
  unfold val
  have hl : ∀ k : Fin 256, lidx_main_v0 (ix3 b s e) k = ix3 b s k := fun k =>
    funext fun a => by match a with | ⟨0, _⟩ => rfl | ⟨1, _⟩ => rfl | ⟨2, _⟩ => rfl
  have hr : ∀ k : Fin 256, ridx_main_v0 (ix3 b s e) k = ix2 e k := fun k =>
    funext fun a => by match a with | ⟨0, _⟩ => rfl | ⟨1, _⟩ => rfl
  have hb : idx_main_v1 (idx_main_v2 (ix3 b s e)) = ix1 e :=
    funext fun a => by match a with | ⟨0, _⟩ => rfl
  simp only [hl, hr, hb, Ideal.addf_def]

/-- The key stage at `(b, s, e)` is `(∑ d, E b s d · Wk e d) + bk e`. -/
theorem v7_at (b : Fin 16) (s : Fin 8192) (e : Fin 256) :
    val_main_v7 (F := Ideal) A.E A.Wk A.bk (ix3 b s e) = key A b s e := by
  rw [val_main_v7_apply, val_main_v4_apply, val_main_v6_apply, val_main_v5_apply]
  unfold key
  have hl : ∀ k : Fin 256, lidx_main_v4 (ix3 b s e) k = ix3 b s k := fun k =>
    funext fun a => by match a with | ⟨0, _⟩ => rfl | ⟨1, _⟩ => rfl | ⟨2, _⟩ => rfl
  have hr : ∀ k : Fin 256, ridx_main_v4 (ix3 b s e) k = ix2 e k := fun k =>
    funext fun a => by match a with | ⟨0, _⟩ => rfl | ⟨1, _⟩ => rfl
  have hb : idx_main_v5 (idx_main_v6 (ix3 b s e)) = ix1 e :=
    funext fun a => by match a with | ⟨0, _⟩ => rfl
  simp only [hl, hr, hb, Ideal.addf_def]

/-- The scaled-logit stage at `(b, n, s)`: the product of the key row with query row `n` (the transposed
    `dot_general`), divided by `√256`, is the specification's `(∑ d, Q n d · key b s d) · 1/16`. -/
theorem v12_at (b : Fin 16) (n : Fin 64) (s : Fin 8192) :
    val_main_v12 (F := Ideal) A.E A.Wk A.bk A.Q (ix3 b n s) = logit A b n s := by
  rw [val_main_v12_apply, val_main_v9_apply, val_main_v8_apply, val_main_v11_apply, val_main_v10_apply]
  have hl : ∀ k : Fin 256, lidx_main_v8 (idx_main_v9 (ix3 b n s)) k = ix3 b s k := fun k =>
    funext fun a => by match a with | ⟨0, _⟩ => rfl | ⟨1, _⟩ => rfl | ⟨2, _⟩ => rfl
  have hr : ∀ k : Fin 256, ridx_main_v8 (idx_main_v9 (ix3 b n s)) k = ix2 n k := fun k =>
    funext fun a => by match a with | ⟨0, _⟩ => rfl | ⟨1, _⟩ => rfl
  simp only [hl, hr, v7_at]
  show Ideal.div _ (Ideal.sqrt (Ideal.ofBits .f32 0x43800000#32)) = _
  rw [div_sqrt_256]
  unfold logit
  congr 1
  exact Finset.sum_congr rfl fun k _ => mul_comm _ _

/-- The masked-logit stage at `(b, n, s)`: the large negative constant where the mask word is zero, else the logit. -/
theorem v15_at (b : Fin 16) (n : Fin 64) (s : Fin 8192) :
    val_main_v15 (F := Ideal) A.E A.M A.Wk A.bk A.Q (ix3 b n s) = masked A b n s := by
  rw [val_main_v15_apply, val_main_v14_apply, v12_at]
  rfl

end Cert.RefValue
end
-- ==== Proof.RefMax.lean ====
/-
  The reference program's maximum over the 64 slots, read at plain coordinates: the host's reduce with a maximum body
  from `-∞` is the fold of `max` over the slots, and the further maximum with a broadcast `-∞` changes nothing, so
  the stage is the specification's `mx`.
-/
import proofs.«134120_j17386027614758_1_alg».proof.Proof.Gen.ReferenceIdeal.Read
import proofs.«134120_j17386027614758_1_alg».proof.Proof.Spec
import proofs.«134120_j17386027614758_1_alg».proof.Proof.Algebra
import proofs.«134120_j17386027614758_1_alg».proof.Proof.RefLogit

noncomputable section

open scoped BigOperators

namespace Cert.RefValue

open Cert.ReferenceIdeal Cert.ReferenceIdeal.Read Idealize.ShloMosaic Idealize.ShloMosaic.ValueIdx Cert.Spec

variable (A : Args 16 8192)

/-- The reduced index `(b, s)` with slot `k` put back on the middle axis is `(b, k, s)`. -/
theorem lift_mid (h : S16x64x8192.Reduces [1] S16x8192) (b : Fin 16) (s : Fin 8192)
    (k : Fin (S16x64x8192.size 1)) : h.lift (ix2 b s) k = ix3 b (⟨k.val, k.isLt⟩ : Fin 64) s := by
  funext c; apply Fin.ext
  fin_cases c <;> rfl

/-- The max-reduce stage at `(b, s)` is the fold of `max` from `-∞` over the masked logits of the 64 slots. -/
theorem v16_at (b : Fin 16) (s : Fin 8192) :
    val_main_v16 (F := Ideal) A.E A.M A.Wk A.bk A.Q (ix2 b s) = mx A b s := by
  unfold val_main_v16
  have hr : S16x64x8192.Reduces [1] S16x8192 := by decide
  rw [Host.reduce_eq_fold_single FloatOps.maximumf _ _ Gen.reducesTo_S16x64x8192_S16x8192_d1 hr Gen.h_S_]
  unfold mx
  have hf : (val_main_v15 (F := Ideal) A.E A.M A.Wk A.bk A.Q ∘ hr.lift (ix2 b s))
      = fun n : Fin 64 => masked A b n s :=
    funext fun k => (congrArg _ (lift_mid hr b s k)).trans (v15_at A b ⟨k.val, k.isLt⟩ s)
  exact congrArg (fun f => Finset.fold max negInf f (Finset.univ : Finset (Fin 64))) hf

/-- The maximum of a broadcast `-∞` with the reduce is the reduce: the stage is `mx`. -/
theorem v18_at (b : Fin 16) (s : Fin 8192) :
    val_main_v18 (F := Ideal) A.E A.M A.Wk A.bk A.Q (ix2 b s) = mx A b s := by
  rw [val_main_v18_apply, val_main_v17_apply, v16_at]
  show max negInf (mx A b s) = mx A b s
  rw [negInf_eq]
  exact max_bot_left _

end Cert.RefValue
end
-- ==== Proof.RefSoftmax.lean ====
/-
  The reference program's softmax over the 64 slots, read at plain coordinates: the shifted exponentials, their sum
  over the slots, and their quotient are the specification's `ex`, `sm` and `ex / sm`.
-/
import proofs.«134120_j17386027614758_1_alg».proof.Proof.Gen.ReferenceIdeal.Read
import proofs.«134120_j17386027614758_1_alg».proof.Proof.Spec
import proofs.«134120_j17386027614758_1_alg».proof.Proof.RefMax

noncomputable section

open scoped BigOperators

namespace Cert.RefValue

open Cert.ReferenceIdeal Cert.ReferenceIdeal.Read Idealize.ShloMosaic Idealize.ShloMosaic.ValueIdx Cert.Spec

variable (A : Args 16 8192)

/-- The shifted-exponential stage at `(b, n, s)` is `exp (masked b n s - mx b s)`. -/
theorem v22_at (b : Fin 16) (n : Fin 64) (s : Fin 8192) :
    val_main_v22 (F := Ideal) A.E A.M A.Wk A.bk A.Q (ix3 b n s) = ex A b n s := by
  rw [val_main_v22_apply, val_main_v21_apply, val_main_v20_apply, val_main_v19_apply, v15_at]
  have hi : idx_main_v19 (idx_main_v20 (ix3 b n s)) = ix2 b s :=
    funext fun a => by match a with | ⟨0, _⟩ => rfl | ⟨1, _⟩ => rfl
  rw [hi, v18_at]
  rfl

/-- The sum stage at `(b, s)`: zero plus the sum of the shifted exponentials over the slots. -/
theorem v23_at (b : Fin 16) (s : Fin 8192) :
    val_main_v23 (F := Ideal) A.E A.M A.Wk A.bk A.Q (ix2 b s) = sm A b s := by
  rw [val_main_v23_apply]
  have hi : ∀ k : Fin 64, idx_main_v23 (ix2 b s) k = ix3 b k s := fun k =>
    funext fun a => by match a with | ⟨0, _⟩ => rfl | ⟨1, _⟩ => rfl | ⟨2, _⟩ => rfl
  simp only [hi, v22_at]
  show Ideal.ofBits .f32 0x00000000#32 + _ = _
  rw [Ideal.ofBits_zero_f32, zero_add]
  rfl

/-- The softmax stage at `(b, n, s)` is `ex b n s / sm b s`. -/
theorem v26_at (b : Fin 16) (n : Fin 64) (s : Fin 8192) :
    val_main_v26 (F := Ideal) A.E A.M A.Wk A.bk A.Q (ix3 b n s) = Ideal.div (ex A b n s) (sm A b s) := by
  rw [val_main_v26_apply, val_main_v25_apply, val_main_v24_apply, v22_at]
  have hi : idx_main_v24 (idx_main_v25 (ix3 b n s)) = ix2 b s :=
    funext fun a => by match a with | ⟨0, _⟩ => rfl | ⟨1, _⟩ => rfl
  rw [hi, v23_at]
  rfl

end Cert.RefValue
end
-- ==== Proof.RefAttn.lean ====
/-
  The reference program's normalized weights, read at plain coordinates: the sum of the softmax over the sequence,
  the quotient by it, and the slice at slot 3 (reshaped and broadcast back) are the specification's `attn`.
-/
import proofs.«134120_j17386027614758_1_alg».proof.Proof.Gen.ReferenceIdeal.Read
import proofs.«134120_j17386027614758_1_alg».proof.Proof.Spec
import proofs.«134120_j17386027614758_1_alg».proof.Proof.RefSoftmax

noncomputable section

open scoped BigOperators

namespace Cert.RefValue

open Cert.ReferenceIdeal Cert.ReferenceIdeal.Read Idealize.ShloMosaic Idealize.ShloMosaic.ValueIdx Cert.Spec

variable (A : Args 16 8192)

/-- The sequence-sum stage at `(b, n)`: zero plus the sum of the softmax of slot `n` over the positions. -/
theorem v27_at (b : Fin 16) (n : Fin 64) :
    val_main_v27 (F := Ideal) A.E A.M A.Wk A.bk A.Q (ix2 b n) = ∑ s : Fin 8192, Ideal.div (ex A b n s) (sm A b s) := by
  rw [val_main_v27_apply]
  have hi : ∀ k : Fin 8192, idx_main_v27 (ix2 b n) k = ix3 b n k := fun k =>
    funext fun a => by match a with | ⟨0, _⟩ => rfl | ⟨1, _⟩ => rfl | ⟨2, _⟩ => rfl
  simp only [hi, v26_at]
  show Ideal.ofBits .f32 0x00000000#32 + _ = _
  rw [Ideal.ofBits_zero_f32, zero_add]

/-- The normalized stage at `(b, n, s)`: the softmax over its sum along the sequence. -/
theorem v30_at (b : Fin 16) (n : Fin 64) (s : Fin 8192) :
    val_main_v30 (F := Ideal) A.E A.M A.Wk A.bk A.Q (ix3 b n s)
      = Ideal.div (Ideal.div (ex A b n s) (sm A b s)) (∑ s' : Fin 8192, Ideal.div (ex A b n s') (sm A b s')) := by
  rw [val_main_v30_apply, val_main_v29_apply, val_main_v28_apply, v26_at]
  have hi : idx_main_v28 (idx_main_v29 (ix3 b n s)) = ix2 b n :=
    funext fun a => by match a with | ⟨0, _⟩ => rfl | ⟨1, _⟩ => rfl
  rw [hi, v27_at]
  rfl

/-- The slice at slot 3, reshaped to `(b, s)` and broadcast to `(b, 0, s)`, is the normalized weight `attn b s`. -/
theorem v33_at (b : Fin 16) (z : Fin 1) (s : Fin 8192) :
    val_main_v33 (F := Ideal) A.E A.M A.Wk A.bk A.Q (ix3 b z s) = attn A b s := by
  rw [val_main_v33_apply, val_main_v32_apply, val_main_v31_apply]
  have hi : idx_main_v31 (idx_main_v32 (idx_main_v33 (ix3 b z s))) = ix3 b (3 : Fin 64) s :=
    funext fun a => Fin.ext (by
      have hb : b.val < 16 := b.isLt
      have hs : s.val < 8192 := s.isLt
      match a with
      | ⟨0, _⟩ => show (b.val * 8192 + s.val) / 8192 = b.val; omega
      | ⟨1, _⟩ => rfl
      | ⟨2, _⟩ => show (b.val * 8192 + s.val) % 8192 = s.val; omega)
  rw [hi, v30_at]
  rfl

end Cert.RefValue
end
-- ==== Proof.RefValue.lean ====
/-
  The reference program's two results as the specification's arrays: the normalized weights are `attnArr`, and the
  weighted mean of the value rows (each weight divided by the sum of the weights first) is `outArrR`.
-/
import proofs.«134120_j17386027614758_1_alg».proof.Proof.Gen.ReferenceIdeal.Read
import proofs.«134120_j17386027614758_1_alg».proof.Proof.Spec
import proofs.«134120_j17386027614758_1_alg».proof.Proof.RefAttn

noncomputable section

open scoped BigOperators

namespace Cert.RefValue

open Cert.ReferenceIdeal Cert.ReferenceIdeal.Read Idealize.ShloMosaic Idealize.ShloMosaic.ValueIdx Cert.Spec

variable (A : Args 16 8192)

/-- The last stage at `(b, 0, e)`: the sum over the positions of the normalized weight times the value row. -/
theorem v34_at (b : Fin 16) (z : Fin 1) (e : Fin 256) :
    val_main_v34 (F := Ideal) A.E A.M A.Wv A.bv A.Wk A.bk A.Q (ix3 b z e) = outR A b e := by
  rw [val_main_v34_apply]
  have hl : ∀ k : Fin 8192, lidx_main_v34 (ix3 b z e) k = ix3 b z k := fun k =>
    funext fun a => by match a with | ⟨0, _⟩ => rfl | ⟨1, _⟩ => rfl | ⟨2, _⟩ => rfl
  have hr : ∀ k : Fin 8192, ridx_main_v34 (ix3 b z e) k = ix3 b k e := fun k =>
    funext fun a => by match a with | ⟨0, _⟩ => rfl | ⟨1, _⟩ => rfl | ⟨2, _⟩ => rfl
  simp only [hl, hr, v33_at, v3_at]
  rfl

/-- The reference's weighted-mean result is the specification's array in the normalize-first arrangement. -/
theorem out_eq_args :
    val_main_v34 (F := Ideal) A.E A.M A.Wv A.bv A.Wk A.bk A.Q = outArrR A := by
  funext i
  obtain ⟨b, z, e, rfl⟩ : ∃ (b : Fin 16) (z : Fin 1) (e : Fin 256), i = ix3 b z e := ⟨i 0, i 1, i 2, eq_ix3 i⟩
  rw [v34_at]
  rfl

/-- The reference's normalized-weights result is the specification's array of them. -/
theorem attn_eq_args :
    val_main_v33 (F := Ideal) A.E A.M A.Wk A.bk A.Q = attnArr A := by
  funext i
  obtain ⟨b, z, s, rfl⟩ : ∃ (b : Fin 16) (z : Fin 1) (s : Fin 8192), i = ix3 b z s := ⟨i 0, i 1, i 2, eq_ix3 i⟩
  rw [v33_at]
  rfl

/-- The same two equalities over the seven argument arrays taken one by one. -/
theorem out_eq (x0 : FVec Ideal ⟨3, ![16, 8192, 256]⟩ .f32) (x1 : IVec ⟨3, ![16, 64, 8192]⟩ 32)
    (x2 : FVec Ideal ⟨2, ![256, 256]⟩ .f32) (x3 : FVec Ideal ⟨1, ![256]⟩ .f32)
    (x4 : FVec Ideal ⟨2, ![256, 256]⟩ .f32) (x5 : FVec Ideal ⟨1, ![256]⟩ .f32)
    (x6 : FVec Ideal ⟨2, ![64, 256]⟩ .f32) :
    val_main_v34 (F := Ideal) x0 x1 x2 x3 x4 x5 x6 = outArrR (⟨x0, x1, x2, x3, x4, x5, x6⟩ : Args 16 8192) :=
  out_eq_args ⟨x0, x1, x2, x3, x4, x5, x6⟩

theorem attn_eq (x0 : FVec Ideal ⟨3, ![16, 8192, 256]⟩ .f32) (x1 : IVec ⟨3, ![16, 64, 8192]⟩ 32)
    (x2 : FVec Ideal ⟨2, ![256, 256]⟩ .f32) (x3 : FVec Ideal ⟨1, ![256]⟩ .f32)
    (x4 : FVec Ideal ⟨2, ![256, 256]⟩ .f32) (x5 : FVec Ideal ⟨1, ![256]⟩ .f32)
    (x6 : FVec Ideal ⟨2, ![64, 256]⟩ .f32) :
    val_main_v33 (F := Ideal) x0 x1 x4 x5 x6 = attnArr (⟨x0, x1, x2, x3, x4, x5, x6⟩ : Args 16 8192) :=
  attn_eq_args ⟨x0, x1, x2, x3, x4, x5, x6⟩

end Cert.RefValue
end
-- ==== Proof.Finite.lean ====
/-
  The precondition read back: every float entry of the six float arguments is a real number.

  The printed precondition is the conjunction, over the six float arrays, of "every entry x has |x| < +∞", each
  conjunct a reduction by "and" over all axes of the entrywise comparison. A conjunction of one-bit words that is 1
  has both conjuncts 1; a reduction by "and" over all axes that is 1 met a 1 at every entry; and an extended real x
  with max x (-x) < ⊤ is neither infinity, hence a real number. The integer mask argument is not constrained.
-/
import proofs.«134120_j17386027614758_1_alg».proof.Proof.Gen.Pre_finite_inputs
import proofs.«134120_j17386027614758_1_alg».proof.Proof.Spec
import Idealize.ShloMosaic.Lib.ReduceAll

noncomputable section

namespace Cert.Finite

open Idealize.ShloMosaic Idealize.ShloMosaic.ValueIdx
open Cert.Pre_finite_inputs

/-- The rank-0 shape has one index. -/
instance : Subsingleton S_.Idx := ⟨fun a b => funext fun d => d.elim0⟩

/-- The word of +∞ denotes the top element. -/
theorem ofBits_inf : Ideal.ofBits .f32 0x7F800000#32 = ⊤ := by
  simp [Ideal.ofBits, Ideal.ieee]

/-- An extended real whose absolute value is below +∞ is a real number. -/
theorem real_of_abs_lt (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One conjunct of the precondition: if the reduction by "and" over all axes of the comparison |x| < +∞ is 1, every
    entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    ∀ i, ∃ r : ℝ, x i = (r : EReal) := by
  intro i
  have hi := Host.reduce_andi_all _ _ hr hu ix0 e i
  apply real_of_abs_lt (x i)
  rw [← ofBits_inf]
  exact hi

/-- The precondition gives real entries in all six float arguments. -/
theorem real_of_pre (x0 : FVec Ideal S16x8192x256 .f32) (x1 : IVec S16x64x8192 32) (x2 : FVec Ideal S256x256 .f32)
    (x3 : FVec Ideal S256 .f32) (x4 : FVec Ideal S256x256 .f32) (x5 : FVec Ideal S256 .f32)
    (x6 : FVec Ideal S64x256 .f32)
    (h : Cert.Pre_finite_inputs.fn (F := Ideal) x0 x1 x2 x3 x4 x5 x6 = (fun _ => 1#1)) :
    (⟨x0, x1, x2, x3, x4, x5, x6⟩ : Cert.Spec.Args 16 8192).Real := by
  have e := congrFun h ix0
  dsimp only [fn, fn_part1] at e
  simp only [andi, IntOp.andi_eq_one] at e
  obtain ⟨⟨⟨⟨⟨h0, h2⟩, h3⟩, h4⟩, h5⟩, h6⟩ := e
  exact ⟨real_of_all x0 _ _ _ h0, real_of_all x2 _ _ _ h2, real_of_all x3 _ _ _ h3, real_of_all x4 _ _ _ h4,
    real_of_all x5 _ _ _ h5, real_of_all x6 _ _ _ h6⟩

end Cert.Finite

end
-- ==== Proof.lean ====
/-
  The certificate's five claims.

  The kernel: per batch row and per tile of 2048 positions it forms value rows and keys (two affine maps of the
  embedding rows), the 64 slots' scaled dot-product logits with a large negative constant where the mask is zero, the
  softmax over the slots read at slot 3 (the position's weight), and accumulates over the row's four tiles the
  weighted sum of value rows and the sum of weights; outside the region it divides the weighted sums and the weights
  by the row's sum of weights. The reference: the same logits, the softmax over the slots, each slot's weights divided
  by their sum over the sequence, slot 3's row, and its product with the value rows.

  At the extended reals both compute one function of the arguments up to ONE law: the kernel's
  `(∑ s, w s · v s) / D` against the reference's `∑ s, (w s / D) · v s`. That law moves a division across a sum, so it
  needs every term finite and `D ≠ 0`: the precondition makes every float input a real, whence the value rows, the
  logits, their maximum, the exponentials (positive), their sum (positive), the weights (positive) and `D` (a positive
  real) are reals. The reference's `x / √256` is the kernel's `x · 0.0625` on every extended real; regrouping the sum
  over 8192 positions into four tiles of 2048 needs no finiteness.

  The three frames: the two kernel programs' are the generated frame runs; the reference's is its generated run with
  the results dropped. The idealization rewrote nothing, so `preserves` is `True`.
-/
import proofs.«134120_j17386027614758_1_alg».proof.Defs
import proofs.«134120_j17386027614758_1_alg».proof.Proof.Gen.Kernel
import proofs.«134120_j17386027614758_1_alg».proof.Proof.Gen.Kernel.Skeleton
import proofs.«134120_j17386027614758_1_alg».proof.Proof.Gen.Kernel.Launch
import proofs.«134120_j17386027614758_1_alg».proof.Proof.Gen.Kernel.Points
import proofs.«134120_j17386027614758_1_alg».proof.Proof.Gen.Kernel.Frame
import proofs.«134120_j17386027614758_1_alg».proof.Proof.Gen.KernelIdeal
import proofs.«134120_j17386027614758_1_alg».proof.Proof.Gen.KernelIdeal.Skeleton
import proofs.«134120_j17386027614758_1_alg».proof.Proof.Gen.KernelIdeal.Launch
import proofs.«134120_j17386027614758_1_alg».proof.Proof.Gen.KernelIdeal.Points
import proofs.«134120_j17386027614758_1_alg».proof.Proof.Gen.KernelIdeal.Frame
import proofs.«134120_j17386027614758_1_alg».proof.Proof.Gen.ReferenceIdeal
import proofs.«134120_j17386027614758_1_alg».proof.Proof.Gen.Pre_finite_inputs
import proofs.«134120_j17386027614758_1_alg».proof.Proof.Gen.ReferenceIdeal.Run
import proofs.«134120_j17386027614758_1_alg».proof.Proof.Gen.ReferenceIdeal.Read
import proofs.«134120_j17386027614758_1_alg».proof.Proof.Tail
import proofs.«134120_j17386027614758_1_alg».proof.Proof.RefValue
import proofs.«134120_j17386027614758_1_alg».proof.Proof.Algebra
import proofs.«134120_j17386027614758_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Under the precondition every float entry of the argument arrays is a real. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KernelIdeal.Blocks.args m c).Real :=
  Cert.Finite.real_of_pre _ _ _ _ _ _ _ (hpre c)

/-- Both programs end with the weighted means and the normalized weights of the same arguments: the kernel's sum-first
    arrangement and the reference's normalize-first arrangement agree on real entries with a positive sum of weights. -/
theorem algebraic : Cert.algebraic_KernelIdeal_ReferenceIdeal := by
  intro m ρ m' ρ' hpre hagree
  refine ⟨fun c => Cert.Spec.outArrK (Cert.KernelIdeal.Blocks.args m c),
    fun c => Cert.Spec.attnArr (Cert.KernelIdeal.Blocks.args m c), Cert.KernelIdeal.Tail.run m ρ, ?_⟩
  refine (θ_run Cert.ReferenceIdeal.defs _ _).mono (fun _ h c => ?_) (Cert.ReferenceIdeal.Value.run (F := Ideal) m' ρ')
  obtain ⟨h34, h33, hrest⟩ := h c
  obtain ⟨a0, a1, a2, a3, a4, a5, a6⟩ := hagree c
  refine ⟨h34.trans ?_, h33.trans ?_, hrest⟩
  · rw [Cert.ReferenceIdeal.Read.val_main_v34_eq, a0, a1, a2, a3, a4, a5, a6]
    exact (Cert.RefValue.out_eq _ _ _ _ _ _ _).trans
      (Cert.Spec.outArrK_eq_outArrR (Cert.KernelIdeal.Blocks.args m c) (args_real m hpre c) (by decide)).symm
  · rw [Cert.ReferenceIdeal.Read.val_main_v33_eq, a0, a1, a4, a5, a6]
    exact Cert.RefValue.attn_eq _ _ (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
